-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x256 : Shape := ⟨2, ![160000, 256]⟩
abbrev S160000 : Shape := ⟨1, ![160000]⟩
abbrev S64x256 : Shape := ⟨2, ![64, 256]⟩
abbrev S256x768 : Shape := ⟨2, ![256, 768]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S160000x256 : S_.BroadcastsInDim S160000x256 (![] : Fin 0 → Fin S160000x256.rank)
  reducesTo_S160000x256_S_d0_1 : S160000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S160000 : S_.BroadcastsInDim S160000 (![] : Fin 0 → Fin S160000.rank)
  reducesTo_S160000_S_d0 : S160000.ReducesTo [0] S_

variable [Facts]

def fn_part2 {F : FTy → Type} [FloatOps F] (main_arg2 : IVec S160000 32) (main_v33 : IVec S_ 1) : IVec S_ 1 :=
  let main_c_12 : IVec S_ 32 := constantI S_ 32 0#32
  let main_v34 : IVec S160000 32 := broadcastInDim S160000 ![] bcast_S_S160000 main_c_12
  let main_v35 : IVec S160000 1 := cmpi .sge main_arg2 main_v34
  let main_c_13 : IVec S_ 32 := constantI S_ 32 64#32
  let main_v36 : IVec S160000 32 := broadcastInDim S160000 ![] bcast_S_S160000 main_c_13
  let main_v37 : IVec S160000 1 := cmpi .slt main_arg2 main_v36
  let main_v38 : IVec S160000 1 := andi main_v35 main_v37
  let main_c_14 : IVec S_ 1 := constantI S_ 1 1#1
  let main_v39 : IVec S_ 1 := (fun x v => Host.reduce IntOp.andi x v reducesTo_S160000_S_d0 h_S_) main_v38 main_c_14
  let main_v40 : IVec S_ 1 := andi main_v33 main_v39
  main_v40

def fn_part1 {F : FTy → Type} [FloatOps F] (main_arg2 : IVec S160000 32) (main_arg5 : FVec F S256 .f32) (main_arg6 : FVec F S1x256 .f32) (main_arg7 : FVec F S1 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256 .f32 := Host.absf main_arg6
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg2 main_v33

def fn {F : FTy → Type} [FloatOps F] (main_arg0 : FVec F S160000x256 .f32) (main_arg1 : FVec F S160000x256 .f32) (main_arg2 : IVec S160000 32) (main_arg3 : FVec F S64x256 .f32) (main_arg4 : FVec F S256x768 .f32) (main_arg5 : FVec F S256 .f32) (main_arg6 : FVec F S1x256 .f32) (main_arg7 : FVec F S1 .f32) : IVec S_ 1 :=
  let main_v0 : FVec F S160000x256 .f32 := Host.absf main_arg0
  let main_cst : FVec F S_ .f32 := constant S_ .f32 0x7F800000#32
  let main_v1 : FVec F S160000x256 .f32 := broadcastInDim S160000x256 ![] bcast_S_S160000x256 main_cst
  let main_v2 : IVec S160000x256 1 := cmpf .olt main_v0 main_v1
  let main_c : IVec S_ 1 := constantI S_ 1 1#1
  let main_v3 : IVec S_ 1 := (fun x v => Host.reduce IntOp.andi x v reducesTo_S160000x256_S_d0_1 h_S_) main_v2 main_c
  let main_v4 : FVec F S160000x256 .f32 := Host.absf main_arg1
  let main_cst_0 : FVec F S_ .f32 := constant S_ .f32 0x7F800000#32
  let main_v5 : FVec F S160000x256 .f32 := broadcastInDim S160000x256 ![] bcast_S_S160000x256 main_cst_0
  let main_v6 : IVec S160000x256 1 := cmpf .olt main_v4 main_v5
  let main_c_1 : IVec S_ 1 := constantI S_ 1 1#1
  let main_v7 : IVec S_ 1 := (fun x v => Host.reduce IntOp.andi x v reducesTo_S160000x256_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x768 .f32 := Host.absf main_arg4
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg2 main_arg5 main_arg6 main_arg7 main_v13 main_v16
-- ==== Kernel.lean ====
abbrev S160000x256 : Shape := ⟨2, ![160000, 256]⟩
abbrev S160000 : Shape := ⟨1, ![160000]⟩
abbrev S64x256 : Shape := ⟨2, ![64, 256]⟩
abbrev S256x768 : Shape := ⟨2, ![256, 768]⟩
abbrev S256 : Shape := ⟨1, ![256]⟩
abbrev S1x256 : Shape := ⟨2, ![1, 256]⟩
abbrev S1 : Shape := ⟨1, ![1]⟩
abbrev S20x1x8000 : Shape := ⟨3, ![20, 1, 8000]⟩
abbrev S1x1 : Shape := ⟨2, ![1, 1]⟩
abbrev S1x1x8000 : Shape := ⟨3, ![1, 1, 8000]⟩
abbrev S8000x256 : Shape := ⟨2, ![8000, 256]⟩
abbrev S8000 : Shape := ⟨1, ![8000]⟩
abbrev S8000x1 : Shape := ⟨2, ![8000, 1]⟩
abbrev S1x64 : Shape := ⟨2, ![1, 64]⟩
abbrev S8000x64 : Shape := ⟨2, ![8000, 64]⟩
abbrev S128x768 : Shape := ⟨2, ![128, 768]⟩
abbrev S128x256 : Shape := ⟨2, ![128, 256]⟩
abbrev S64x128 : Shape := ⟨2, ![64, 128]⟩
abbrev S8000x128 : Shape := ⟨2, ![8000, 128]⟩
abbrev S1x128 : Shape := ⟨2, ![1, 128]⟩
abbrev S1x8000 : Shape := ⟨2, ![1, 8000]⟩
abbrev S160000x1 : Shape := ⟨2, ![160000, 1]⟩

abbrev nBuf : Space → Nat
  | .hbm => 14
  | .vmem => 15
  | .smem => 0
  | _ => 0

abbrev bufTy : (tb : Table) → Fin (tcTables nBuf tb) → BufTy
  | .hbm, ⟨0, _⟩ => ⟨S160000x256, .f32⟩
  | .hbm, ⟨1, _⟩ => ⟨S160000x256, .f32⟩
  | .hbm, ⟨2, _⟩ => ⟨S160000, .i32⟩
  | .hbm, ⟨3, _⟩ => ⟨S64x256, .f32⟩
  | .hbm, ⟨4, _⟩ => ⟨S256x768, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S20x1x8000, .i32⟩
  | .hbm, ⟨9, _⟩ => ⟨S1x256, .f32⟩
  | .hbm, ⟨10, _⟩ => ⟨S1x1, .f32⟩
  | .hbm, ⟨11, _⟩ => ⟨S160000x256, .f32⟩
  | .hbm, ⟨12, _⟩ => ⟨S20x1x8000, .f32⟩
  | .hbm, ⟨13, _⟩ => ⟨S160000x1, .f32⟩
  | .local _ .vmem, ⟨0, _⟩ => ⟨S1x1x8000, .i32⟩
  | .local _ .vmem, ⟨1, _⟩ => ⟨S1x1x8000, .i32⟩
  | .local _ .vmem, ⟨2, _⟩ => ⟨S8000x256, .f32⟩
  | .local _ .vmem, ⟨3, _⟩ => ⟨S8000x256, .f32⟩
  | .local _ .vmem, ⟨4, _⟩ => ⟨S8000x256, .f32⟩
  | .local _ .vmem, ⟨5, _⟩ => ⟨S8000x256, .f32⟩
  | .local _ .vmem, ⟨6, _⟩ => ⟨S256x768, .f32⟩
  | .local _ .vmem, ⟨7, _⟩ => ⟨S64x256, .f32⟩
  | .local _ .vmem, ⟨8, _⟩ => ⟨S1x256, .f32⟩
  | .local _ .vmem, ⟨9, _⟩ => ⟨S1x256, .f32⟩
  | .local _ .vmem, ⟨10, _⟩ => ⟨S1x1, .f32⟩
  | .local _ .vmem, ⟨11, _⟩ => ⟨S8000x256, .f32⟩
  | .local _ .vmem, ⟨12, _⟩ => ⟨S8000x256, .f32⟩
  | .local _ .vmem, ⟨13, _⟩ => ⟨S1x1x8000, .f32⟩
  | .local _ .vmem, ⟨14, _⟩ => ⟨S1x1x8000, .f32⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x8000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S160000_S20x1x8000 : S160000.ShapeCasts S20x1x8000
  shapeCasts_S256_S1x256 : S256.ShapeCasts S1x256
  shapeCasts_S1_S1x1 : S1.ShapeCasts S1x1
  inb_S256x768_S256x768_0_0 : ∀ a, (![0, 0] : Fin 2 → Nat) a + S256x768.size a ≤ S256x768.size a
  h_S256x768 : 0 < S256x768.numel
  inb_S1x1x8000_S1x1x8000_0_0_0 : ∀ a, (![0, 0, 0] : Fin 3 → Nat) a + S1x1x8000.size a ≤ S1x1x8000.size a
  h_S1x1x8000 : 0 < S1x1x8000.numel
  shapeCasts_S1x1x8000_S8000 : S1x1x8000.ShapeCasts S8000
  shapeCasts_S8000_S8000x1 : S8000.ShapeCasts S8000x1
  iota_S1x64_d1_w32 : S1x64.Iotas .tc 32 [1]
  broadcasts_S8000x1_S8000x64 : S8000x1.Broadcasts S8000x64
  broadcasts_S1x64_S8000x64 : S1x64.Broadcasts S8000x64
  natLt_1_32 : 1 < 32
  inb_S8000x256_S8000x256_0_0 : ∀ a, (![0, 0] : Fin 2 → Nat) a + S8000x256.size a ≤ S8000x256.size a
  h_S8000x256 : 0 < S8000x256.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S256x768_o0_0_S128x768 : S256x768.Slices ![0, 0] S128x768
  inb_S64x256_S64x256_0_0 : ∀ a, (![0, 0] : Fin 2 → Nat) a + S64x256.size a ≤ S64x256.size a
  h_S64x256 : 0 < S64x256.numel
  slices_S128x768_o0_256_S128x256 : S128x768.Slices ![0, 256] S128x256
  slices_S128x768_o0_0_S128x256 : S128x768.Slices ![0, 0] S128x256
  slices_S128x768_o0_512_S128x256 : S128x768.Slices ![0, 512] S128x256
  inb_S1x256_S1x128_0_0 : ∀ a, (![0, 0] : Fin 2 → Nat) a + S1x128.size a ≤ S1x256.size a
  h_S1x128 : 0 < S1x128.numel
  shapeCasts_S1x128_S1x128 : S1x128.ShapeCasts S1x128
  broadcasts_S1x128_S8000x128 : S1x128.Broadcasts S8000x128
  inb_S8000x256_S8000x128_0_0 : ∀ a, (![0, 0] : Fin 2 → Nat) a + S8000x128.size a ≤ S8000x256.size a
  h_S8000x128 : 0 < S8000x128.numel
  slices_S256x768_o128_0_S128x768 : S256x768.Slices ![128, 0] S128x768
  inb_S1x256_S1x128_0_128 : ∀ a, (![0, 128] : Fin 2 → Nat) a + S1x128.size a ≤ S1x256.size a
  inb_S8000x256_S8000x128_0_128 : ∀ a, (![0, 128] : Fin 2 → Nat) a + S8000x128.size a ≤ S8000x256.size a
  shapeCasts_S1x8000_S1x1x8000 : S1x8000.ShapeCasts S1x1x8000
  shapeCasts_S20x1x8000_S160000x1 : S20x1x8000.ShapeCasts S160000x1
  dot_S64x256_S128x256_S64x128_1_1_0_0_n_n_wf : DotDims.WF S64x256 S128x256 S64x128 [1] [1] [0] [0] [] []
  dot_S8000x256_S128x256_S8000x128_1_1_0_0_n_n_wf : DotDims.WF S8000x256 S128x256 S8000x128 [1] [1] [0] [0] [] []
  dot_S8000x64_S64x128_S8000x128_1_0_0_1_n_n_wf : DotDims.WF S8000x64 S64x128 S8000x128 [1] [0] [0] [1] [] []
  dot_S1x128_S8000x128_S1x8000_1_1_0_0_n_n_wf : DotDims.WF S1x128 S8000x128 S1x8000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8000.size a ≤ S20x1x8000.size a
  hwx0_0 : ∀ i : grid0.Coords, EltTy.bits .i32 = 32 ∨ (Rect.block (s := S20x1x8000) S1x1x8000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x256.size a ≤ S160000x256.size a
  hwx0_1 : ∀ i : grid0.Coords, EltTy.bits .f32 = 32 ∨ (Rect.block (s := S160000x256) S8000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x256.size a ≤ S160000x256.size a
  hwx0_2 : ∀ i : grid0.Coords, EltTy.bits .f32 = 32 ∨ (Rect.block (s := S160000x256) S8000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x256.size a ≤ S160000x256.size a
  hwx0_8 : ∀ i : grid0.Coords, EltTy.bits .f32 = 32 ∨ (Rect.block (s := S160000x256) S8000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x8000.size a ≤ S20x1x8000.size a
  hwx0_9 : ∀ i : grid0.Coords, EltTy.bits .f32 = 32 ∨ (Rect.block (s := S20x1x8000) S1x1x8000.size (cc0_transform_9 i) (hinb0_9 i)).WholeWords (EltTy.packing .f32)

variable [Facts₀]

def dot_S64x256_S128x256_S64x128_1_1_0_0_n_n : DotDims S64x256 S128x256 S64x128 where
  lhsContracting := [1]
  rhsContracting := [1]
  lhsNonContracting := [0]
  rhsNonContracting := [0]
  lhsBatch := []
  rhsBatch := []
  wf := dot_S64x256_S128x256_S64x128_1_1_0_0_n_n_wf
def dot_S8000x256_S128x256_S8000x128_1_1_0_0_n_n : DotDims S8000x256 S128x256 S8000x128 where
  lhsContracting := [1]
  rhsContracting := [1]
  lhsNonContracting := [0]
  rhsNonContracting := [0]
  lhsBatch := []
  rhsBatch := []
  wf := dot_S8000x256_S128x256_S8000x128_1_1_0_0_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S1x128_S8000x128_S1x8000_1_1_0_0_n_n : DotDims S1x128 S8000x128 S1x8000 where
  lhsContracting := [1]
  rhsContracting := [1]
  lhsNonContracting := [0]
  rhsNonContracting := [0]
  lhsBatch := []
  rhsBatch := []
  wf := dot_S1x128_S8000x128_S1x8000_1_1_0_0_n_n_wf

abbrev win0_0 : Pipeline.Window sig grid0 :=
  Pipeline.Window.ofSpec (Memref.whole main_v0) S1x1x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S8000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S1x1x8000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S160000x256 : Shape := ⟨2, ![160000, 256]⟩
abbrev S160000 : Shape := ⟨1, ![160000]⟩
abbrev S64x256 : Shape := ⟨2, ![64, 256]⟩
abbrev S256x768 : Shape := ⟨2, ![256, 768]⟩
abbrev S256 : Shape := ⟨1, ![256]⟩
abbrev S1x256 : Shape := ⟨2, ![1, 256]⟩
abbrev S1 : Shape := ⟨1, ![1]⟩
abbrev S_ : Shape := ⟨0, ![]⟩
abbrev S160000x1 : Shape := ⟨2, ![160000, 1]⟩
abbrev S1x1 : Shape := ⟨2, ![1, 1]⟩
abbrev S160000x768 : Shape := ⟨2, ![160000, 768]⟩
abbrev S768x256 : Shape := ⟨2, ![768, 256]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S160000x256, .f32⟩
  | .hbm, ⟨2, _⟩ => ⟨S160000, .i32⟩
  | .hbm, ⟨3, _⟩ => ⟨S64x256, .f32⟩
  | .hbm, ⟨4, _⟩ => ⟨S256x768, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S1, .i32⟩
  | .hbm, ⟨17, _⟩ => ⟨S_, .i32⟩
  | .hbm, ⟨18, _⟩ => ⟨S160000x1, .i32⟩
  | .hbm, ⟨19, _⟩ => ⟨S160000x1, .i1⟩
  | .hbm, ⟨20, _⟩ => ⟨S1x1, .i32⟩
  | .hbm, ⟨21, _⟩ => ⟨S160000x1, .i32⟩
  | .hbm, ⟨22, _⟩ => ⟨S160000x1, .i1⟩
  | .hbm, ⟨23, _⟩ => ⟨S160000x1, .i1⟩
  | .hbm, ⟨24, _⟩ => ⟨S_, .i1⟩
  | .hbm, ⟨25, _⟩ => ⟨S160000, .i1⟩
  | .hbm, ⟨26, _⟩ => ⟨S160000x256, .f32⟩
  | .hbm, ⟨27, _⟩ => ⟨S160000x256, .i1⟩
  | .hbm, ⟨28, _⟩ => ⟨S_, .f32⟩
  | .hbm, ⟨29, _⟩ => ⟨S160000x256, .f32⟩
  | .hbm, ⟨30, _⟩ => ⟨S160000x256, .f32⟩
  | .hbm, ⟨31, _⟩ => ⟨S160000x768, .f32⟩
  | .hbm, ⟨32, _⟩ => ⟨S768x256, .f32⟩
  | .hbm, ⟨33, _⟩ => ⟨S160000x256, .f32⟩
  | .hbm, ⟨34, _⟩ => ⟨S1x256, .f32⟩
  | .hbm, ⟨35, _⟩ => ⟨S160000x256, .f32⟩
  | .hbm, ⟨36, _⟩ => ⟨S160000x256, .f32⟩
  | .hbm, ⟨37, _⟩ => ⟨S256x1, .f32⟩
  | .hbm, ⟨38, _⟩ => ⟨S160000x1, .f32⟩
  | .hbm, ⟨39, _⟩ => ⟨S1x1, .f32⟩
  | .hbm, ⟨40, _⟩ => ⟨S160000x1, .f32⟩
  | .hbm, ⟨41, _⟩ => ⟨S160000x1, .f32⟩
  | .hbm, ⟨42, _⟩ => ⟨S_, .f32⟩
  | .hbm, ⟨43, _⟩ => ⟨S_, .f32⟩
  | .hbm, ⟨44, _⟩ => ⟨S160000x1, .f32⟩
  | .hbm, ⟨45, _⟩ => ⟨S160000x1, .i1⟩
  | .hbm, ⟨46, _⟩ => ⟨S_, .f32⟩
  | .hbm, ⟨47, _⟩ => ⟨S160000x1, .f32⟩
  | .hbm, ⟨48, _⟩ => ⟨S160000x1, .f32⟩
  | .hbm, ⟨49, _⟩ => ⟨S160000x1, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v12 : Ref sig .tc := ⟨.hbm, 49, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x256_0 : S160000.BroadcastsInDim S160000x256 (![0] : Fin 1 → Fin S160000x256.rank)
  bcast_S_S160000x256 : S_.BroadcastsInDim S160000x256 (![] : Fin 0 → Fin S160000x256.rank)
  concatenates_S160000x256_S160000x256_S160000x256_S160000x768_d1 : Shape.Concatenates [S160000x256, S160000x256, S160000x256] S160000x768 1
  transposes_S256x768_S768x256_1_0 : S256x768.Transposes [1, 0] S768x256
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  transposes_S1x256_S256x1_1_0 : S1x256.Transposes [1, 0] S256x1
  gather_S64x256_S160000x1_S160000x256_1_0_n_n_0_1_1256_wf : GatherDims.WF S64x256 S160000x1 S160000x256 [1] [0] [] [0] [] 1 ![1, 256]
  dot_S160000x768_S768x256_S160000x256_1_0_0_1_n_n_wf : DotDims.WF S160000x768 S768x256 S160000x256 [1] [0] [0] [1] [] []
  dot_S160000x256_S256x1_S160000x1_1_0_0_1_n_n_wf : DotDims.WF S160000x256 S256x1 S160000x1 [1] [0] [0] [1] [] []

variable [Facts₀]

def gather_S64x256_S160000x1_S160000x256_1_0_n_n_0_1_1256 : GatherDims S64x256 S160000x1 S160000x256 where
  offsetDims := [1]
  collapsedSliceDims := [0]
  operandBatchingDims := []
  startIndicesBatchingDims := []
  startIndexMap := [0]
  indexVectorDim := 1
  sliceSizes := ![1, 256]
  wf := gather_S64x256_S160000x1_S160000x256_1_0_n_n_0_1_1256_wf
def dot_S160000x768_S768x256_S160000x256_1_0_0_1_n_n : DotDims S160000x768 S768x256 S160000x256 where
  lhsContracting := [1]
  rhsContracting := [0]
  lhsNonContracting := [0]
  rhsNonContracting := [1]
  lhsBatch := []
  rhsBatch := []
  wf := dot_S160000x768_S768x256_S160000x256_1_0_0_1_n_n_wf
def dot_S160000x256_S256x1_S160000x1_1_0_0_1_n_n : DotDims S160000x256 S256x1 S160000x1 where
  lhsContracting := [1]
  rhsContracting := [0]
  lhsNonContracting := [0]
  rhsNonContracting := [1]
  lhsBatch := []
  rhsBatch := []
  wf := dot_S160000x256_S256x1_S160000x1_1_0_0_1_n_n_wf

class Facts : Prop extends Facts₀ where

variable [Facts]
-- ==== Proof.PreRange.lean ====
/-
  The range of the relation numbers, read back from the precondition.

  The precondition's last conjunct is "every relation number r satisfies 0 ≤ r and r < 64", both comparisons signed,
  reduced by "and" over all 160000 entries. When the precondition evaluates to 1, that reduction is 1, so each entry
  passes both comparisons, and a 32-bit word in [0, 64) signed has a natural-number value below 64.
-/
import proofs.«158912_g13245679141183_cont_week2b_1242_17_alg».proof.Pre_finite_inputs
import proofs.«158912_g13245679141183_cont_week2b_1242_17_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs

/-- The shape of a scalar has one index. -/
instance : Subsingleton S_.Idx := ⟨fun a b => funext fun d => d.elim0⟩

theorem ofBool_eq_one (b : Bool) : BitVec.ofBool b = 1#1 ↔ b = true := by cases b <;> decide

/-- A word in [0, 64) signed is below 64 as a natural number. -/
theorem toNat_lt (w : BitVec 32) (h0 : IntOp.cmpi .sge w (0#32) = 1#1) (h64 : IntOp.cmpi .slt w (64#32) = 1#1) :
    w.toNat < 64 := by
  unfold IntOp.cmpi at h0 h64
  rw [ofBool_eq_one] at h0 h64
  simp only [BitVec.slt, BitVec.sle, decide_eq_true_eq] at h0 h64
  have h32 := w.isLt
  unfold BitVec.toInt at h0 h64
  split at h64 <;> simp at h0 h64 <;> omega

/-- Where the precondition holds, every relation number is below 64. -/
theorem ids_lt {F : FTy → Type} [FloatOps F] (a0 a1 : FVec F S160000x256 .f32) (a2 : IVec S160000 32) (a3 : FVec F S64x256 .f32)
    (a4 : FVec F S256x768 .f32) (a5 : FVec F S256 .f32) (a6 : FVec F S1x256 .f32) (a7 : FVec F S1 .f32)
    (h : fn (F := F) a0 a1 a2 a3 a4 a5 a6 a7 = fun _ => 1#1) (e : Fin 160000) : (a2 (ix1 e)).toNat < 64 := by
  have h0 := congrFun h ix0
  dsimp only [fn, fn_part1, fn_part2] at h0
  have h39 := (IntOp.andi_eq_one.1 (show IntOp.andi _ _ = 1#1 from h0)).2
  have hall := Host.reduce_andi_all _ _ _ _ ix0 h39 (ix1 e)
  obtain ⟨hge, hlt⟩ := IntOp.andi_eq_one.1 (show IntOp.andi _ _ = 1#1 from hall)
  exact toNat_lt (a2 (ix1 e)) hge hlt

end Cert.PreRange

end
-- ==== Proof.Spec.lean ====
/-
  The function both programs compute, stated once over the whole argument arrays.

  For an edge e with relation number r = ids[e] (a row of the 64-row relation table) and an output
  feature j, the transformed triple is

      tt[e, j] = ( Σ_k ego[e, k] · W[j, k] + Σ_k nbr[e, k] · W[j, 512 + k] + Σ_k rel[r, k] · W[j, 256 + k] ) + b1[j]

  (k ranges over the 256 embedding columns: the three column blocks of the 256 × 768 weight act on the
  ego, relation and neighbour embeddings), and the attention score is the leaky clamp of

      pre[e] = ( Σ_j tt[e, j] · w2[0, j] ) + b2[0].

  The same two functions are stated for one block of 8000 consecutive edges, over the block's own
  slices of the arrays, which is what one grid point of the kernel sees.
-/
import Idealize.ShloMosaic.PureOps.Ideal
import Idealize.ShloMosaic.Lib.ValueIdx

noncomputable section

open scoped BigOperators

namespace Cert.Spec

open Idealize.ShloMosaic Idealize.ShloMosaic.ValueIdx

/-- The relation-table row a 32-bit relation number selects (total: the number reduced modulo 64, which is the
    number itself when it lies in [0, 64)). -/
def relRow (w : BitVec 32) : Fin 64 := ⟨w.toNat % 64, Nat.mod_lt _ (by decide)⟩

theorem relRow_val_of_lt (w : BitVec 32) (h : w.toNat < 64) : (relRow w).val = w.toNat := Nat.mod_eq_of_lt h

/-- The leaky clamp with slope f32(0.2): x where 0 ≤ x, slope · x elsewhere. -/
def leaky (x : EReal) : EReal := if 0 ≤ x then x else Ideal.ofBits .f32 0x3E4CCCCD#32 * x

/-! ## Over the whole arrays -/

/-- tt[e, j]. -/
def ttEntry (ego nbr : FVec Ideal ⟨2, ![160000, 256]⟩ .f32) (ids : IVec ⟨1, ![160000]⟩ 32)
    (rel : FVec Ideal ⟨2, ![64, 256]⟩ .f32) (W : FVec Ideal ⟨2, ![256, 768]⟩ .f32) (b1 : FVec Ideal ⟨1, ![256]⟩ .f32)
    (e : Fin 160000) (j : Fin 256) : EReal :=
  ((∑ k : Fin 256, ego (ix2 e k) * W (ix2 j (⟨k.val, by omega⟩ : Fin 768)))
    + (∑ k : Fin 256, nbr (ix2 e k) * W (ix2 j (⟨512 + k.val, by omega⟩ : Fin 768)))
    + (∑ k : Fin 256, rel (ix2 (relRow (ids (ix1 e))) k) * W (ix2 j (⟨256 + k.val, by omega⟩ : Fin 768))))
    + b1 (ix1 j)

/-- pre[e], the attention score before the clamp. -/
def preEntry (ego nbr : FVec Ideal ⟨2, ![160000, 256]⟩ .f32) (ids : IVec ⟨1, ![160000]⟩ 32)
    (rel : FVec Ideal ⟨2, ![64, 256]⟩ .f32) (W : FVec Ideal ⟨2, ![256, 768]⟩ .f32) (b1 : FVec Ideal ⟨1, ![256]⟩ .f32)
    (w2 : FVec Ideal ⟨2, ![1, 256]⟩ .f32) (b2 : FVec Ideal ⟨1, ![1]⟩ .f32) (e : Fin 160000) : EReal :=
  (∑ j : Fin 256, ttEntry ego nbr ids rel W b1 e j * w2 (ix2 (0 : Fin 1) j)) + b2 (ix1 (0 : Fin 1))

/-- The first result, as one array. -/
def TT (ego nbr : FVec Ideal ⟨2, ![160000, 256]⟩ .f32) (ids : IVec ⟨1, ![160000]⟩ 32)
    (rel : FVec Ideal ⟨2, ![64, 256]⟩ .f32) (W : FVec Ideal ⟨2, ![256, 768]⟩ .f32) (b1 : FVec Ideal ⟨1, ![256]⟩ .f32) :
    FVec Ideal ⟨2, ![160000, 256]⟩ .f32 :=
  fun i => ttEntry ego nbr ids rel W b1 (i 0) (i 1)

/-- The second result, as one array (a column). -/
def ATTN (ego nbr : FVec Ideal ⟨2, ![160000, 256]⟩ .f32) (ids : IVec ⟨1, ![160000]⟩ 32)
    (rel : FVec Ideal ⟨2, ![64, 256]⟩ .f32) (W : FVec Ideal ⟨2, ![256, 768]⟩ .f32) (b1 : FVec Ideal ⟨1, ![256]⟩ .f32)
    (w2 : FVec Ideal ⟨2, ![1, 256]⟩ .f32) (b2 : FVec Ideal ⟨1, ![1]⟩ .f32) : FVec Ideal ⟨2, ![160000, 1]⟩ .f32 :=
  fun i => leaky (preEntry ego nbr ids rel W b1 w2 b2 (i 0))

/-! ## Over one block of 8000 edges -/

/-- tt of row p of a block, feature q: the block's relation numbers as a [1, 1, 8000] array, the bias as a
    [1, 256] row. -/
def blockTT (ids : IVec ⟨3, ![1, 1, 8000]⟩ 32) (ego nbr : FVec Ideal ⟨2, ![8000, 256]⟩ .f32)
    (W : FVec Ideal ⟨2, ![256, 768]⟩ .f32) (rel : FVec Ideal ⟨2, ![64, 256]⟩ .f32) (b1 : FVec Ideal ⟨2, ![1, 256]⟩ .f32)
    (p : Fin 8000) (q : Fin 256) : EReal :=
  ((∑ k : Fin 256, ego (ix2 p k) * W (ix2 q (⟨k.val, by omega⟩ : Fin 768)))
    + (∑ k : Fin 256, nbr (ix2 p k) * W (ix2 q (⟨512 + k.val, by omega⟩ : Fin 768)))
    + (∑ k : Fin 256, rel (ix2 (relRow (ids (ix3 (0 : Fin 1) (0 : Fin 1) p))) k) * W (ix2 q (⟨256 + k.val, by omega⟩ : Fin 768))))
    + b1 (ix2 (0 : Fin 1) q)

/-- pre of row p of a block: the score weights as a [1, 256] row, the score bias as a [1, 1] array. -/
def blockPre (ids : IVec ⟨3, ![1, 1, 8000]⟩ 32) (ego nbr : FVec Ideal ⟨2, ![8000, 256]⟩ .f32)
    (W : FVec Ideal ⟨2, ![256, 768]⟩ .f32) (rel : FVec Ideal ⟨2, ![64, 256]⟩ .f32) (b1 w2 : FVec Ideal ⟨2, ![1, 256]⟩ .f32)
    (b2 : FVec Ideal ⟨2, ![1, 1]⟩ .f32) (p : Fin 8000) : EReal :=
  (∑ j : Fin 256, blockTT ids ego nbr W rel b1 p j * w2 (ix2 (0 : Fin 1) j)) + b2 (ix2 (0 : Fin 1) (0 : Fin 1))

/-! ## Two small laws -/

/-- A one-hot weighting picks one term: if the weights are 1 at r and 0 elsewhere, the weighted sum is the r-th
    value. On the extended reals 0 · x = 0 and 1 · x = x for every x, infinities included. -/
theorem onehot_sum {n : Nat} (r : Fin n) (oh P : Fin n → EReal) (h : ∀ s, oh s = if s = r then 1 else 0) :
    ∑ s : Fin n, oh s * P s = P r := by
  rw [Finset.sum_eq_single r]
  · rw [h r, if_pos rfl, one_mul]
  · intro s _ hs; rw [h s, if_neg hs, zero_mul]
  · intro hr; exact absurd (Finset.mem_univ r) hr

/-- A sum over a + b positions is the sum over the first a plus the sum over the last b. -/
theorem sum_add {a b c : Nat} (hc : a + b = c) (f : Fin c → EReal) :
    ∑ k : Fin c, f k = (∑ k : Fin a, f ⟨k.val, by omega⟩) + ∑ k : Fin b, f ⟨a + k.val, by omega⟩ := by
  subst hc
  rw [Fin.sum_univ_add]
  rfl

/-- A sum over 256 positions is the sum over the first 128 plus the sum over the last 128. -/
theorem sum_halves (f : Fin 256 → EReal) :
    ∑ j : Fin 256, f j = (∑ j : Fin 128, f ⟨j.val, by omega⟩) + ∑ j : Fin 128, f ⟨128 + j.val, by omega⟩ :=
  sum_add (a := 128) (b := 128) rfl f

/-- A sum over 768 positions is the sum of its three runs of 256. -/
theorem sum_thirds (f : Fin 768 → EReal) :
    ∑ k : Fin 768, f k = (∑ k : Fin 256, f ⟨k.val, by omega⟩) + (∑ k : Fin 256, f ⟨256 + k.val, by omega⟩)
      + ∑ k : Fin 256, f ⟨512 + k.val, by omega⟩ := by
  rw [sum_add (a := 512) (b := 256) rfl f,
    sum_add (a := 256) (b := 256) rfl (fun k : Fin 512 => f ⟨k.val, by omega⟩)]

end Cert.Spec

end
-- ==== Proof.KernelRows.lean ====
/-
  One grid point's view of the arrays.

  The grid has 20 points; point t stages rows 8000·t … 8000·t + 7999 of the two embedding arrays and of the relation
  numbers (which the program first lays out as a [20, 1, 8000] array: entry (t, 0, p) is number 8000·t + p), and the whole of
  the weight, the relation table, the bias (laid out as a [1, 256] row), the score weights and the score bias (a [1, 1]
  array). So a block's transformed triple and score at its row p are the whole arrays' at row 8000·t + p.
-/
import proofs.«158912_g13245679141183_cont_week2b_1242_17_alg».proof.Proof.Gen.KernelIdeal.Frame
import proofs.«158912_g13245679141183_cont_week2b_1242_17_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem t_lt (t : Fin cfg0.N) : t.val < 20 := by
  have h := t.isLt
  have hN : cfg0.N = 20 := N_0
  omega

/-- Row p of block t is row 8000·t + p of the whole array. -/
def row (t : Fin cfg0.N) (p : Fin 8000) : Fin 160000 := ⟨8000 * t.val + p.val, by have := t_lt t; omega⟩

/-- The printed index maps, decided over the 20 grid points: the row-blocked windows sit at block t on axis 0, the others
    at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 3) = t.val ∧ win0_9.index t (1 : Fin 3) = 0 ∧ win0_9.index t (2 : Fin 3) = 0) :=
  (by decide +kernel : ∀ t : Fin grid0.N, _)

/-- Each window's block at point t, read at an index, as the argument array it stages. -/
theorem iblk1_apply (c : Dev nD) (t : Fin cfg0.N) (p : Fin 8000) (k : Fin 256) :
    (iblk m c 1 t : Vec Ideal S8000x256 .f32) (ix2 p k) = (m ((c : Thread nD τ).loc main_arg0) : S160000x256.Idx → EReal) (ix2 (row t p) k) := by
  obtain ⟨-, ⟨e0, e1⟩, -⟩ := idx_facts t
  unfold iblk
  rw [View.read_apply]
  show V m c main_arg0 _ = _
  rw [V_main_arg0]
  refine congrArg _ ?_
  funext a
  apply Fin.ext
  match a with
  | ⟨0, _⟩ => show win0_1.index t 0 * 8000 + 1 * p.val = 8000 * t.val + p.val; rw [e0]; omega
  | ⟨1, _⟩ => show win0_1.index t 1 * 256 + 1 * k.val = k.val; rw [e1]; omega

/-- The three arrays the host lays out before the kernel runs are reshapes of arguments. -/
theorem V_v0 (c : Dev nD) : (V m c main_v0 : S20x1x8000.Idx → BitVec 32)
    = shapeCast S20x1x8000 (m ((c : Thread nD τ).loc main_arg2)) shapeCasts_S160000_S20x1x8000 := by
  show StableHlo.after hostOps0 (fun b => m (c, b)) (Proc.devRef .tc main_v0) = _
  after_results
  rfl

theorem V_v1 (c : Dev nD) : (V m c main_v1 : S1x256.Idx → EReal)
    = shapeCast S1x256 (m ((c : Thread nD τ).loc main_arg5)) shapeCasts_S256_S1x256 := by
  show StableHlo.after hostOps0 (fun b => m (c, b)) (Proc.devRef .tc main_v1) = _
  after_results
  rfl

theorem V_v2 (c : Dev nD) : (V m c main_v2 : S1x1.Idx → EReal)
    = shapeCast S1x1 (m ((c : Thread nD τ).loc main_arg7)) shapeCasts_S1_S1x1 := by
  show StableHlo.after hostOps0 (fun b => m (c, b)) (Proc.devRef .tc main_v2) = _
  after_results
  rfl

theorem iblk2_apply (c : Dev nD) (t : Fin cfg0.N) (p : Fin 8000) (k : Fin 256) :
    (iblk m c 2 t : Vec Ideal S8000x256 .f32) (ix2 p k) = (m ((c : Thread nD τ).loc main_arg1) : S160000x256.Idx → EReal) (ix2 (row t p) k) := by
  obtain ⟨-, -, ⟨e0, e1⟩, -⟩ := idx_facts t
  unfold iblk
  rw [View.read_apply]
  show V m c main_arg1 _ = _
  rw [V_main_arg1]
  refine congrArg _ ?_
  funext a
  apply Fin.ext
  match a with
  | ⟨0, _⟩ => show win0_2.index t 0 * 8000 + 1 * p.val = 8000 * t.val + p.val; rw [e0]; omega
  | ⟨1, _⟩ => show win0_2.index t 1 * 256 + 1 * k.val = k.val; rw [e1]; omega

theorem iblk3_apply (c : Dev nD) (t : Fin cfg0.N) (a : Fin 256) (b : Fin 768) :
    (iblk m c 3 t : Vec Ideal S256x768 .f32) (ix2 a b) = (m ((c : Thread nD τ).loc main_arg4) : S256x768.Idx → EReal) (ix2 a b) := by
  obtain ⟨-, -, -, ⟨e0, e1⟩, -⟩ := idx_facts t
  unfold iblk
  rw [View.read_apply]
  show V m c main_arg4 _ = _
  rw [V_main_arg4]
  refine congrArg _ ?_
  funext d
  apply Fin.ext
  match d with
  | ⟨0, _⟩ => show win0_3.index t 0 * 256 + 1 * a.val = a.val; rw [e0]; omega
  | ⟨1, _⟩ => show win0_3.index t 1 * 768 + 1 * b.val = b.val; rw [e1]; omega

theorem iblk4_apply (c : Dev nD) (t : Fin cfg0.N) (a : Fin 64) (b : Fin 256) :
    (iblk m c 4 t : Vec Ideal S64x256 .f32) (ix2 a b) = (m ((c : Thread nD τ).loc main_arg3) : S64x256.Idx → EReal) (ix2 a b) := by
  obtain ⟨-, -, -, -, ⟨e0, e1⟩, -⟩ := idx_facts t
  unfold iblk
  rw [View.read_apply]
  show V m c main_arg3 _ = _
  rw [V_main_arg3]
  refine congrArg _ ?_
  funext d
  apply Fin.ext
  match d with
  | ⟨0, _⟩ => show win0_4.index t 0 * 64 + 1 * a.val = a.val; rw [e0]; omega
  | ⟨1, _⟩ => show win0_4.index t 1 * 256 + 1 * b.val = b.val; rw [e1]; omega

theorem iblk6_apply (c : Dev nD) (t : Fin cfg0.N) (a : Fin 1) (b : Fin 256) :
    (iblk m c 6 t : Vec Ideal S1x256 .f32) (ix2 a b) = (m ((c : Thread nD τ).loc main_arg6) : S1x256.Idx → EReal) (ix2 a b) := by
  obtain ⟨-, -, -, -, -, -, ⟨e0, e1⟩, -⟩ := idx_facts t
  unfold iblk
  rw [View.read_apply]
  show V m c main_arg6 _ = _
  rw [V_main_arg6]
  refine congrArg _ ?_
  funext d
  apply Fin.ext
  match d with
  | ⟨0, _⟩ => show win0_6.index t 0 * 1 + 1 * a.val = a.val; rw [e0]; omega
  | ⟨1, _⟩ => show win0_6.index t 1 * 256 + 1 * b.val = b.val; rw [e1]; omega

theorem iblk5_apply (c : Dev nD) (t : Fin cfg0.N) (a : Fin 1) (b : Fin 256) :
    (iblk m c 5 t : Vec Ideal S1x256 .f32) (ix2 a b) = (m ((c : Thread nD τ).loc main_arg5) : S256.Idx → EReal) (ix1 b) := by
  obtain ⟨-, -, -, -, -, ⟨e0, e1⟩, -⟩ := idx_facts t
  unfold iblk
  rw [View.read_apply]
  show V m c main_v1 _ = _
  rw [V_v1]
  refine shapeCast_apply _ _ _ _ ?_
  refine (Shape.rowMajor_val_one (d := ![256]) _).trans ((Shape.rowMajor_val_two (d := ![1, 256]) _).trans ?_).symm
  show (win0_5.index t 0 * 1 + 1 * a.val) * 256 + (win0_5.index t 1 * 256 + 1 * b.val) = b.val
  rw [e0, e1]
  have := a.isLt
  omega

theorem iblk7_apply (c : Dev nD) (t : Fin cfg0.N) (a : Fin 1) (b : Fin 1) :
    (iblk m c 7 t : Vec Ideal S1x1 .f32) (ix2 a b) = (m ((c : Thread nD τ).loc main_arg7) : S1.Idx → EReal) (ix1 (0 : Fin 1)) := by
  obtain ⟨-, -, -, -, -, -, -, ⟨e0, e1⟩, -⟩ := idx_facts t
  unfold iblk
  rw [View.read_apply]
  show V m c main_v2 _ = _
  rw [V_v2]
  refine shapeCast_apply _ _ _ _ ?_
  refine (Shape.rowMajor_val_one (d := ![1]) _).trans ((Shape.rowMajor_val_two (d := ![1, 1]) _).trans ?_).symm
  show (win0_7.index t 0 * 1 + 1 * a.val) * 1 + (win0_7.index t 1 * 1 + 1 * b.val) = 0
  rw [e0, e1]
  have := a.isLt
  have := b.isLt
  omega

theorem iblk0_apply (c : Dev nD) (t : Fin cfg0.N) (a b : Fin 1) (p : Fin 8000) :
    (iblk m c 0 t : Vec Ideal S1x1x8000 .i32) (ix3 a b p) = (m ((c : Thread nD τ).loc main_arg2) : S160000.Idx → BitVec 32) (ix1 (row t p)) := by
  obtain ⟨⟨e0, e1, e2⟩, -⟩ := idx_facts t
  unfold iblk
  rw [View.read_apply]
  show V m c main_v0 _ = _
  rw [V_v0]
  refine shapeCast_apply _ _ _ _ ?_
  refine (Shape.rowMajor_val_one (d := ![160000]) _).trans ((Shape.rowMajor_val_three (d := ![20, 1, 8000]) _).trans ?_).symm
  show ((win0_0.index t 0 * 1 + 1 * a.val) * 1 + (win0_0.index t 1 * 1 + 1 * b.val)) * 8000 + (win0_0.index t 2 * 8000 + 1 * p.val) = 8000 * t.val + p.val
  rw [e0, e1, e2]
  have := a.isLt
  have := b.isLt
  omega

/-! ## A block's entries are the whole arrays' entries -/

theorem blockTT_eq (c : Dev nD) (t : Fin cfg0.N) (p : Fin 8000) (q : Fin 256) :
    Cert.Spec.blockTT (iblk m c 0 t) (iblk m c 1 t) (iblk m c 2 t) (iblk m c 3 t) (iblk m c 4 t) (iblk m c 5 t) p q
      = Cert.Spec.ttEntry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (row t p) q := by
  unfold Cert.Spec.blockTT Cert.Spec.ttEntry
  simp only [iblk0_apply, iblk1_apply, iblk2_apply, iblk3_apply, iblk4_apply, iblk5_apply]

theorem blockPre_eq (c : Dev nD) (t : Fin cfg0.N) (p : Fin 8000) :
    Cert.Spec.blockPre (iblk m c 0 t) (iblk m c 1 t) (iblk m c 2 t) (iblk m c 3 t) (iblk m c 4 t) (iblk m c 5 t) (iblk m c 6 t) (iblk m c 7 t) p
      = Cert.Spec.preEntry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (row t p) := by
  unfold Cert.Spec.blockPre Cert.Spec.preEntry
  simp only [blockTT_eq, iblk6_apply, iblk7_apply]

end Cert.KernelIdeal.Whole

end
-- ==== Proof.KernelPayOneHot.lean ====
/-
  The one-hot matrix of a block's relation numbers, read at an entry.

  Row p of the [8000, 64] matrix compares the 32-bit relation number of edge p with the column numbers 0 … 63 (as
  32-bit words), widens the comparison bit to a word and reads it as a signed integer: entry (p, s) is 1 when the
  relation number is the word of s, and 0 otherwise.
-/
import proofs.«158912_g13245679141183_cont_week2b_1242_17_alg».proof.Proof.Gen.KernelIdeal.Frame
import proofs.«158912_g13245679141183_cont_week2b_1242_17_alg».proof.Proof.Spec
import Idealize.ShloMosaic.Lib.Pipeline.Value
import Idealize.ShloMosaic.Lib.ValueLayout

noncomputable section

open scoped BigOperators

namespace Cert.KernelIdeal.Block

open Idealize.ShloMosaic Idealize.ShloMosaic.ValueIdx Cert.KernelIdeal Cert.KernelIdeal.Gen

variable {α : Type}

/-- A [1, 1, a] array viewed as a vector: entry p is the array's entry (0, 0, p). -/
theorem vecOf11a_apply {a : Nat} (v : (⟨3, ![1, 1, a]⟩ : Shape).Idx → α)
    (h : (⟨3, ![1, 1, a]⟩ : Shape).ShapeCasts ⟨1, ![a]⟩) (p : Fin a) :
    shapeCast (⟨1, ![a]⟩ : Shape) v h (ix1 p) = v (ix3 (0 : Fin 1) (0 : Fin 1) p) := by
  refine shapeCast_apply v h (ix1 p) (ix3 (0 : Fin 1) (0 : Fin 1) p) ?_
  rw [Shape.rowMajor_val_one, Shape.rowMajor_val_three]
  show ((0 : Fin 1).val * 1 + (0 : Fin 1).val) * a + p.val = p.val
  simp

/-- A vector viewed as a one-column matrix: entry (p, 0) is the vector's entry p. -/
theorem colOfVec_apply {a : Nat} (v : (⟨1, ![a]⟩ : Shape).Idx → α)
    (h : (⟨1, ![a]⟩ : Shape).ShapeCasts ⟨2, ![a, 1]⟩) (p : Fin a) (u : Fin 1) :
    shapeCast (⟨2, ![a, 1]⟩ : Shape) v h (ix2 p u) = v (ix1 p) := by
  refine shapeCast_apply v h (ix2 p u) (ix1 p) ?_
  have hu : u.val = 0 := by omega
  rw [Shape.rowMajor_val_one, Shape.rowMajor_val_two]
  show p.val = p.val * 1 + u.val
  omega

/-- A one-column matrix spread over b columns: entry (p, c) is the column's entry (p, 0). -/
theorem colSpread_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened to 32 bits and read as a signed integer on the extended reals: 1 when
    the words are equal, 0 otherwise. -/
theorem sitofp_eqBit (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · subst h; simp
  · have : (a == b) = false := by simpa using h
    simp [this, h]

/-- Entry (p, s) of the one-hot matrix. -/
theorem pay3_apply (v1 : Vec Ideal S1x1x8000 .i32) (p : Fin 8000) (s : Fin 64) :
    k0_pay3 (F := Ideal) v1 (ix2 p s)
      = if v1 (ix3 (0 : Fin 1) (0 : Fin 1) p) = BitVec.ofNat 32 s.val then (1 : EReal) else 0 := by
  unfold k0_pay3
  refine Eq.trans ?_ (sitofp_eqBit _ _)
  show FloatOps.sitofp (F := Ideal) .f32 ((IntOp.cmpi .eq
      (broadcastTo S8000x64 (shapeCast S8000x1 (shapeCast S8000 v1 _) _) _ (ix2 p s))
      (broadcastTo S8000x64 (iota .tc S1x64 32 [1] _) _ (ix2 p s))).setWidth 32) = _
  rw [colSpread_apply, colOfVec_apply, vecOf11a_apply, broadcastTo_1b_ab_apply,
    iota_single_apply .tc S1x64 32 (1 : Fin 2)]

end Cert.KernelIdeal.Block

end
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.KernelPayTT.lean ====
/-
  The transformed triple of one half of the output features, read at an entry.

  Both halves of the [8000, 256] result are computed by the same expression over a [128, 768] band of rows of the
  weight W (rows 0 … 127 for the first half, rows 128 … 255 for the second): with the band's three column blocks
  acting on the ego, neighbour and relation embeddings,

      half[p, q] = ((Σ_k ego[p, k] · band[q, k] + Σ_k nbr[p, k] · band[q, 512 + k])
                      + Σ_s onehot[p, s] · (Σ_k rel[s, k] · band[q, 256 + k])) + b[0, q].

  When row p of the one-hot matrix is 1 at column r and 0 elsewhere, the third sum is Σ_k rel[r, k] · band[q, 256 + k].
-/
import proofs.«158912_g13245679141183_cont_week2b_1242_17_alg».proof.Proof.KernelPayOneHot
import proofs.«158912_g13245679141183_cont_week2b_1242_17_alg».proof.Proof.LibAttentionDots
import proofs.«158912_g13245679141183_cont_week2b_1242_17_alg».proof.Proof.LibPlainDot

noncomputable section

open scoped BigOperators

namespace Cert.KernelIdeal.Block

open Idealize.ShloMosaic Idealize.ShloMosaic.ValueIdx Cert.KernelIdeal Cert.KernelIdeal.Gen

/-- The value both halves share, over a band of 128 rows of the weight and any [8000, 64] weighting matrix. -/
def halfTT (band : FVec Ideal S128x768 .f32) (oh : FVec Ideal S8000x64 .f32) (ego nbr : FVec Ideal S8000x256 .f32)
    (rel : FVec Ideal S64x256 .f32) (b : FVec Ideal S1x128 .f32) (p : Fin 8000) (q : Fin 128) : EReal :=
  ((∑ k : Fin 256, ego (ix2 p k) * band (ix2 q (⟨k.val, by omega⟩ : Fin 768)))
    + (∑ k : Fin 256, nbr (ix2 p k) * band (ix2 q (⟨512 + k.val, by omega⟩ : Fin 768)))
    + (∑ s : Fin 64, oh (ix2 p s) * ∑ k : Fin 256, rel (ix2 s k) * band (ix2 q (⟨256 + k.val, by omega⟩ : Fin 768))))
    + b (ix2 (0 : Fin 1) q)

/-- The expression of one half over its band, read at (p, q). -/
theorem band_apply (band : FVec Ideal S128x768 .f32) (oh : FVec Ideal S8000x64 .f32) (ego nbr : FVec Ideal S8000x256 .f32)
    (rel : FVec Ideal S64x256 .f32) (b : FVec Ideal S1x128 .f32) (p : Fin 8000) (q : Fin 128) :
    addf (addf (addf
        (matmul (F := Ideal) dot_S8000x256_S128x256_S8000x128_1_1_0_0_n_n none ego
          (extractStridedSlice S128x256 ![0, 0] band slices_S128x768_o0_0_S128x256) (constant (F := Ideal) S8000x128 .f32 0x00000000#32))
        (matmul (F := Ideal) dot_S8000x256_S128x256_S8000x128_1_1_0_0_n_n none nbr
          (extractStridedSlice S128x256 ![0, 512] band slices_S128x768_o0_512_S128x256) (constant (F := Ideal) S8000x128 .f32 0x00000000#32)))
        (matmul (F := Ideal) dot_S8000x64_S64x128_S8000x128_1_0_0_1_n_n none oh
          (matmul (F := Ideal) dot_S64x256_S128x256_S64x128_1_1_0_0_n_n none rel
            (extractStridedSlice S128x256 ![0, 256] band slices_S128x768_o0_256_S128x256) (constant (F := Ideal) S64x128 .f32 0x00000000#32))
          (constant (F := Ideal) S8000x128 .f32 0x00000000#32)))
        (broadcastTo S8000x128 (shapeCast S1x128 b shapeCasts_S1x128_S1x128) broadcasts_S1x128_S8000x128) (ix2 p q)
      = halfTT band oh ego nbr rel b p q := by
  have e1 := (Cert.Lib.AttentionDots.matmul_trhs dot_S8000x256_S128x256_S8000x128_1_1_0_0_n_n rfl rfl rfl rfl rfl rfl none ego
      (extractStridedSlice S128x256 ![0, 0] band slices_S128x768_o0_0_S128x256) p q).trans
    (Finset.sum_congr rfl fun k _ => congrArg (ego (ix2 p k) * ·)
      (slice2_axis1_apply 0 band slices_S128x768_o0_0_S128x256 q k (⟨k.val, by omega⟩ : Fin 768) (Nat.zero_add _).symm))
  have e2 := (Cert.Lib.AttentionDots.matmul_trhs dot_S8000x256_S128x256_S8000x128_1_1_0_0_n_n rfl rfl rfl rfl rfl rfl none nbr
      (extractStridedSlice S128x256 ![0, 512] band slices_S128x768_o0_512_S128x256) p q).trans
    (Finset.sum_congr rfl fun k _ => congrArg (nbr (ix2 p k) * ·)
      (slice2_axis1_apply 512 band slices_S128x768_o0_512_S128x256 q k (⟨512 + k.val, by omega⟩ : Fin 768) rfl))
  have e3 := (Cert.Bridge.matmul_zero_plain dot_S8000x64_S64x128_S8000x128_1_0_0_1_n_n rfl rfl rfl rfl rfl rfl none oh
      (matmul (F := Ideal) dot_S64x256_S128x256_S64x128_1_1_0_0_n_n none rel
        (extractStridedSlice S128x256 ![0, 256] band slices_S128x768_o0_256_S128x256) (constant (F := Ideal) S64x128 .f32 0x00000000#32)) p q).trans
    (Finset.sum_congr rfl fun s _ => congrArg (oh (ix2 p s) * ·)
      ((Cert.Lib.AttentionDots.matmul_trhs dot_S64x256_S128x256_S64x128_1_1_0_0_n_n rfl rfl rfl rfl rfl rfl none rel
        (extractStridedSlice S128x256 ![0, 256] band slices_S128x768_o0_256_S128x256) s q).trans
      (Finset.sum_congr rfl fun k _ => congrArg (rel (ix2 s k) * ·)
        (slice2_axis1_apply 256 band slices_S128x768_o0_256_S128x256 q k (⟨256 + k.val, by omega⟩ : Fin 768) rfl))))
  have e4 : broadcastTo S8000x128 (shapeCast S1x128 b shapeCasts_S1x128_S1x128) broadcasts_S1x128_S8000x128 (ix2 p q)
      = b (ix2 (0 : Fin 1) q) := by
    rw [broadcastTo_1b_ab_apply, shapeCast_self]
  exact congrArg₂ (· + ·) (congrArg₂ (· + ·) (congrArg₂ (· + ·) e1 e2) e3) e4

/-- A one-hot weighting of the 64 relation rows picks the row it marks. -/
theorem halfTT_onehot (band : FVec Ideal S128x768 .f32) (oh : FVec Ideal S8000x64 .f32) (ego nbr : FVec Ideal S8000x256 .f32)
    (rel : FVec Ideal S64x256 .f32) (b : FVec Ideal S1x128 .f32) (p : Fin 8000) (q : Fin 128) (r : Fin 64)
    (h : ∀ s : Fin 64, oh (ix2 p s) = if s = r then 1 else 0) :
    halfTT band oh ego nbr rel b p q
      = ((∑ k : Fin 256, ego (ix2 p k) * band (ix2 q (⟨k.val, by omega⟩ : Fin 768)))
        + (∑ k : Fin 256, nbr (ix2 p k) * band (ix2 q (⟨512 + k.val, by omega⟩ : Fin 768)))
        + (∑ k : Fin 256, rel (ix2 r k) * band (ix2 q (⟨256 + k.val, by omega⟩ : Fin 768))))
        + b (ix2 (0 : Fin 1) q) := by
  unfold halfTT
  rw [Cert.Spec.onehot_sum r (fun s => oh (ix2 p s))
    (fun s => ∑ k : Fin 256, rel (ix2 s k) * band (ix2 q (⟨256 + k.val, by omega⟩ : Fin 768))) h]

/-- The one-hot matrix of the relation numbers marks, in row p, the column of edge p's relation number when that
    number is below 64: two 32-bit words are equal exactly when their values are. -/
theorem pay3_onehot (v1 : Vec Ideal S1x1x8000 .i32) (p : Fin 8000)
    (hid : (v1 (ix3 (0 : Fin 1) (0 : Fin 1) p)).toNat < 64) (s : Fin 64) :
    k0_pay3 (F := Ideal) v1 (ix2 p s)
      = if s = Cert.Spec.relRow (v1 (ix3 (0 : Fin 1) (0 : Fin 1) p)) then (1 : EReal) else 0 := by
  rw [pay3_apply]
  have hr := Cert.Spec.relRow_val_of_lt _ hid
  have hs : s.val < 2 ^ 32 := lt_trans s.isLt (by decide)
  by_cases hsr : s = Cert.Spec.relRow (v1 (ix3 (0 : Fin 1) (0 : Fin 1) p))
  · rw [if_pos hsr, if_pos]
    rw [hsr, hr, BitVec.ofNat_toNat, BitVec.setWidth_eq]
  · rw [if_neg hsr, if_neg]
    intro hw
    apply hsr
    apply Fin.ext
    rw [hr, hw, BitVec.toNat_ofNat, Nat.mod_eq_of_lt hs]

/-- One half over the band of rows o … o + 127 of W is the block's transformed triple at feature o + q', when the
    weighting matrix's row p marks the relation row of edge p and the half's bias entry is the bias at that feature. -/
theorem half_eq_blockTT (x0 : Vec Ideal S1x1x8000 .i32) (x1 x2 : FVec Ideal S8000x256 .f32) (x3 : FVec Ideal S256x768 .f32)
    (x4 : FVec Ideal S64x256 .f32) (x5 : FVec Ideal S1x256 .f32) (o : Nat) (h : S256x768.Slices ![o, 0] S128x768)
    (oh : FVec Ideal S8000x64 .f32) (b : FVec Ideal S1x128 .f32) (p : Fin 8000) (q' : Fin 128) (q : Fin 256)
    (hq : q.val = o + q'.val)
    (hoh : ∀ s : Fin 64, oh (ix2 p s) = if s = Cert.Spec.relRow (x0 (ix3 (0 : Fin 1) (0 : Fin 1) p)) then 1 else 0)
    (hb : b (ix2 (0 : Fin 1) q') = x5 (ix2 (0 : Fin 1) q)) :
    halfTT (extractStridedSlice S128x768 ![o, 0] x3 h) oh x1 x2 x4 b p q' = Cert.Spec.blockTT x0 x1 x2 x3 x4 x5 p q := by
  rw [halfTT_onehot _ _ _ _ _ _ p q' _ hoh, hb]
  unfold Cert.Spec.blockTT
  simp only [slice2_axis0_apply o x3 h q' _ q hq]

/-- The first half of the features: entry (p, q) of the payload over rows 0 … 127 of W. -/
theorem pay4_apply (v0 : Vec Ideal S256x768 .f32) (v1 : Vec Ideal S1x1x8000 .i32) (v10 v11 : Vec Ideal S8000x256 .f32)
    (v15 : Vec Ideal S64x256 .f32) (v25 : Vec Ideal S1x128 .f32) (p : Fin 8000) (q : Fin 128) :
    k0_pay4 (F := Ideal) v0 v1 v10 v11 v15 v25 (ix2 p q)
      = halfTT (extractStridedSlice S128x768 ![0, 0] v0 slices_S256x768_o0_0_S128x768) (k0_pay3 (F := Ideal) v1) v10 v11 v15 v25 p q := by
  unfold k0_pay4
  exact band_apply _ _ v10 v11 v15 v25 p q

/-- The second half of the features: entry (p, q) of the payload over rows 128 … 255 of W. -/
theorem pay1_apply (v0 : Vec Ideal S256x768 .f32) (v9 : FVec Ideal S8000x64 .f32) (v10 v11 : Vec Ideal S8000x256 .f32)
    (v35 : Vec Ideal S64x256 .f32) (v45 : Vec Ideal S1x128 .f32) (p : Fin 8000) (q : Fin 128) :
    k0_pay1 (F := Ideal) v0 v9 v10 v11 v35 v45 (ix2 p q)
      = halfTT (extractStridedSlice S128x768 ![128, 0] v0 slices_S256x768_o128_0_S128x768) v9 v10 v11 v35 v45 p q := by
  unfold k0_pay1
  exact band_apply _ _ v10 v11 v35 v45 p q

end Cert.KernelIdeal.Block

end
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.KernelPayScore.lean ====
/-
  The attention score of an edge, read at its position.

  The first part adds the score bias to the first half of the features weighted by the first half of the score
  weights; the second part adds the second half weighted by the second half of the score weights and applies the leaky
  clamp with slope f32(0.2): x where 0 ≤ x, slope · x elsewhere.
-/
import proofs.«158912_g13245679141183_cont_week2b_1242_17_alg».proof.Proof.Gen.KernelIdeal.Frame
import proofs.«158912_g13245679141183_cont_week2b_1242_17_alg».proof.Proof.Spec
import proofs.«158912_g13245679141183_cont_week2b_1242_17_alg».proof.Proof.LibAttentionDots
import proofs.«158912_g13245679141183_cont_week2b_1242_17_alg».proof.Proof.LibSideBySide
import Idealize.ShloMosaic.Lib.Pipeline.Value
import Idealize.ShloMosaic.Lib.ValueLayout

noncomputable section

open scoped BigOperators

namespace Cert.KernelIdeal.Block

open Idealize.ShloMosaic Idealize.ShloMosaic.ValueIdx Cert.KernelIdeal Cert.KernelIdeal.Gen

/-- The first part of the score at edge p: the bias plus the first 128 features of p weighted by the score weights. -/
theorem pay5_apply (v0 : Vec Ideal S256x768 .f32) (v1 : Vec Ideal S1x1x8000 .i32) (v10 v11 : Vec Ideal S8000x256 .f32)
    (v12 : Vec Ideal S1x1 .f32) (v15 : Vec Ideal S64x256 .f32) (v25 : Vec Ideal S1x128 .f32) (v30 : FVec Ideal S1x128 .f32) (p : Fin 8000) :
    k0_pay5 (F := Ideal) v0 v1 v10 v11 v12 v15 v25 v30 (ix2 (0 : Fin 1) p)
      = v12 (ix2 (0 : Fin 1) (0 : Fin 1))
        + ∑ j : Fin 128, v30 (ix2 (0 : Fin 1) j) * k0_pay4 (F := Ideal) v0 v1 v10 v11 v15 v25 (ix2 p j) := by
  unfold k0_pay5
  refine congrArg₂ (· + ·) ?_ (Cert.Lib.AttentionDots.matmul_trhs dot_S1x128_S8000x128_S1x8000_1_1_0_0_n_n rfl rfl rfl rfl rfl rfl
    none v30 (k0_pay4 (F := Ideal) v0 v1 v10 v11 v15 v25) (0 : Fin 1) p)
  show v12 _ = v12 _
  refine congrArg v12 (funext fun a => ?_)
  match a with
  | ⟨0, _⟩ => rfl
  | ⟨1, _⟩ => rfl

/-- The score at edge p: the clamp of the first part plus the last 128 features of p weighted by the score weights. -/
theorem pay2_apply (v0 : Vec Ideal S256x768 .f32) (v9 : FVec Ideal S8000x64 .f32) (v10 v11 : Vec Ideal S8000x256 .f32)
    (v33 : FVec Ideal S1x8000 .f32) (v35 : Vec Ideal S64x256 .f32) (v45 : Vec Ideal S1x128 .f32) (v50 : FVec Ideal S1x128 .f32) (p : Fin 8000) :
    k0_pay2 (F := Ideal) v0 v9 v10 v11 v33 v35 v45 v50 (ix3 (0 : Fin 1) (0 : Fin 1) p)
      = Cert.Spec.leaky (v33 (ix2 (0 : Fin 1) p)
        + ∑ j : Fin 128, v50 (ix2 (0 : Fin 1) j) * k0_pay1 (F := Ideal) v0 v9 v10 v11 v35 v45 (ix2 p j)) := by
  unfold k0_pay2
  refine (shapeCast_ab_1ab_apply _ shapeCasts_S1x8000_S1x1x8000 (0 : Fin 1) (0 : Fin 1) p).trans ?_
  have e := Cert.Lib.AttentionDots.matmul_trhs dot_S1x128_S8000x128_S1x8000_1_1_0_0_n_n rfl rfl rfl rfl rfl rfl
    none v50 (k0_pay1 (F := Ideal) v0 v9 v10 v11 v35 v45) (0 : Fin 1) p
  rw [← e]
  exact Cert.Bridge.select_oge_zero _ _ _

end Cert.KernelIdeal.Block

end
-- ==== Proof.LibPieceRead.lean ====
/-
  Reading a buffer that a body filled piece by piece, at an index.

  The contents a list of rectangle stores leaves is, at each index, the payload of the first store of the list whose
  rectangle holds the index. An index that has, on some axis, a coordinate BELOW a rectangle's first coordinate on that
  axis is outside the rectangle (`not_mem_of_lt_off`), so that store is skipped (`canon_cons_of_lt_off`): with the
  library's `View.canon_cons_emb` for the store that does hold the index, a buffer filled by tiles in decreasing order
  of offset is read tile by tile with no case analysis on membership. Also: dropping the leading unit axis of a
  `[1, b, c]` array read at `(q, r)`, the inverse of adding it.
-/
import Idealize.ShloMosaic.Lib.Pipeline.Value
import Idealize.ShloMosaic.Lib.ValueIdx

noncomputable section

namespace Idealize.ShloMosaic.PieceRead

open Idealize.ShloMosaic Idealize.ShloMosaic.ValueIdx

/-- An index with a coordinate below a rectangle's first coordinate on that axis is outside the rectangle (any strides). -/
theorem not_mem_of_lt_off {s : Shape} (r : LoadRect s) {y : s.Idx} (a : Fin s.rank) (h : (y a).val < r.off a) : y ∉ r.set := by
  rw [LoadRect.mem_set]
  intro hm
  obtain ⟨j, -, e⟩ := hm a
  omega

/-- A store whose rectangle starts, on some axis, above the index's coordinate does not touch the index: the contents
    there are what the earlier stores left. -/
theorem canon_cons_of_lt_off {Val : EltTy → Type} [∀ e, Nonempty (Val e)] {s : Shape} {e : EltTy}
    (p : View.Piece Val s e) (L : List (View.Piece Val s e)) {y : s.Idx} (a : Fin s.rank) (h : (y a).val < p.1.off a) :
    View.canon (p :: L) y = View.canon L y :=
  View.canon_cons_of_not_mem p L (not_mem_of_lt_off _ a h)

/-- Dropping the leading unit axis of a `[1, b, c]` array: entry `(q, r)` is entry `(0, q, r)`. -/
theorem castDropFirst_apply {α : Type} {b c : Nat} (v : (⟨3, ![1, b, c]⟩ : Shape).Idx → α)
    (h : (⟨3, ![1, b, c]⟩ : Shape).ShapeCasts ⟨2, ![b, c]⟩) (q : Fin b) (r : Fin c) :
    shapeCast (⟨2, ![b, c]⟩ : Shape) v h (ix2 q r) = v (ix3 (0 : Fin 1) q r) := by
  refine shapeCast_apply v h (ix2 q r) (ix3 (0 : Fin 1) q r) ?_
  rw [Shape.rowMajor_val_two, Shape.rowMajor_val_three]
  show ((0 : Fin 1).val * b + q.val) * c + r.val = q.val * c + r.val
  simp

end Idealize.ShloMosaic.PieceRead

end
-- ==== Proof.LibReadAt.lean ====
/-
  Layout operations and rectangle loads read at an index given by its coordinates, for any sizes.

  A run of consecutive columns `x[:, c:c+w]` of a matrix read at (p, q) is the matrix at (p, c + q), and a run of
  consecutive entries `v[c:c+w]` of a vector read at q is the vector at c + q; the position c + q is named `seg c q`,
  so that a segment starting at 0 and one starting further along are read in one form.  A one-row matrix [1, b] viewed
  as a vector reads at q its entry (0, q).  An array [a, 1, 1, 1, b] with three unit axes viewed as a matrix [a, b]
  reads at (p, k) its entry (p, 0, 0, 0, k).  A load through a unit-stride rectangle at offsets `off` reads, at a local
  index y, the buffer at off + y.  The elementwise logistic and hyperbolic tangent of an array read at an index are
  the scalar functions of the entry.
-/
import Idealize.ShloMosaic.Lib.ValueIdx
import Idealize.ShloMosaic.Lib.Pipeline.Value
import Idealize.ShloMosaic.PureOps.Ideal

noncomputable section

namespace Cert.Lib.ReadAt

open Idealize.ShloMosaic Idealize.ShloMosaic.ValueIdx

variable {α : Type}

/-- Position `q` of the segment of length `w` that starts at `c`, inside `0 … m - 1`. -/
def seg {w m : Nat} (c : Nat) (q : Fin w) (h : c + w ≤ m) : Fin m := ⟨c + q.val, by have := q.isLt; omega⟩

@[simp] theorem seg_val {w m : Nat} (c : Nat) (q : Fin w) (h : c + w ≤ m) : (seg c q h).val = c + q.val := rfl

/-- A block of `w` columns from column `c` fits only if `c + w` is at most the number of columns. -/
theorem cols_le {n m w c : Nat} (h : (⟨2, ![n, m]⟩ : Shape).Slices ![0, c] ⟨2, ![n, w]⟩) : c + w ≤ m := by
  have h1 := h.2 (1 : Fin 2)
  change c + w ≤ m at h1
  exact h1

/-- A run of `w` entries from position `c` fits only if `c + w` is at most the length. -/
theorem run_le {m w c : Nat} (h : (⟨1, ![m]⟩ : Shape).Slices ![c] ⟨1, ![w]⟩) : c + w ≤ m := by
  have h0 := h.2 (0 : Fin 1)
  change c + w ≤ m at h0
  exact h0

/-- Columns `c … c + w - 1` of a matrix, every row kept: entry (p, q) is the matrix's entry (p, c + q). -/
theorem cols_apply {n m w c : Nat} (x : (⟨2, ![n, m]⟩ : Shape).Idx → α)
    (h : (⟨2, ![n, m]⟩ : Shape).Slices ![0, c] ⟨2, ![n, w]⟩) (p : Fin n) (q : Fin w) :
    extractStridedSlice (⟨2, ![n, w]⟩ : Shape) ![0, c] x h (ix2 p q) = x (ix2 p (seg c q (cols_le h))) :=
  extractStridedSlice_apply ![0, c] x h (ix2 p q) (ix2 p (seg c q (cols_le h))) (fun a => match a with
    | ⟨0, _⟩ => show p.val = 0 + p.val from (Nat.zero_add _).symm
    | ⟨1, _⟩ => rfl)

/-- Entries `c … c + w - 1` of a vector: entry q is the vector's entry c + q. -/
theorem run_apply {m w c : Nat} (v : (⟨1, ![m]⟩ : Shape).Idx → α)
    (h : (⟨1, ![m]⟩ : Shape).Slices ![c] ⟨1, ![w]⟩) (q : Fin w) :
    extractStridedSlice (⟨1, ![w]⟩ : Shape) ![c] v h (ix1 q) = v (ix1 (seg c q (run_le h))) :=
  extractStridedSlice_apply ![c] v h (ix1 q) (ix1 (seg c q (run_le h))) (fun a => match a with
    | ⟨0, _⟩ => rfl)

/-- A one-row matrix viewed as a vector: entry q is the row's entry (0, q). -/
theorem vecOfRow_apply {b : Nat} (v : (⟨2, ![1, b]⟩ : Shape).Idx → α)
    (h : (⟨2, ![1, b]⟩ : Shape).ShapeCasts ⟨1, ![b]⟩) (q : Fin b) :
    shapeCast (⟨1, ![b]⟩ : Shape) v h (ix1 q) = v (ix2 (0 : Fin 1) q) := by
  refine shapeCast_apply v h (ix1 q) (ix2 (0 : Fin 1) q) ?_
  rw [Shape.rowMajor_val_one, Shape.rowMajor_val_two]
  show (0 : Fin 1).val * b + q.val = q.val
  simp

/-- An array with three unit axes in the middle viewed as a matrix: entry (p, k) is the array's entry (p, 0, 0, 0, k). -/
theorem matOfUnits_apply {a b : Nat} (v : (⟨5, ![a, 1, 1, 1, b]⟩ : Shape).Idx → α)
    (h : (⟨5, ![a, 1, 1, 1, b]⟩ : Shape).ShapeCasts ⟨2, ![a, b]⟩) (p : Fin a) (k : Fin b) :
    shapeCast (⟨2, ![a, b]⟩ : Shape) v h (ix2 p k) = v (ix5 p (0 : Fin 1) (0 : Fin 1) (0 : Fin 1) k) := by
  refine shapeCast_apply v h (ix2 p k) (ix5 p (0 : Fin 1) (0 : Fin 1) (0 : Fin 1) k) ?_
  rw [Shape.rowMajor_val_five, Shape.rowMajor_val_two]
  show (((p.val * 1 + (0 : Fin 1).val) * 1 + (0 : Fin 1).val) * 1 + (0 : Fin 1).val) * b + k.val = p.val * b + k.val
  simp

/-- A load through a unit-stride rectangle reads, at a local index, the buffer at the offset plus the local index. -/
theorem ld_unit_apply {Val : EltTy → Type} {e : EltTy} {S : Shape} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  rw [hk a]
  show off a + 1 * (y a).val = off a + (y a).val
  rw [Nat.one_mul]

/-- The elementwise logistic function of an array of extended reals, read at an index. -/
theorem logistic_apply {s : Shape} {φ : FTy} (x : FVec Ideal s φ) (i : s.Idx) : logistic x i = Ideal.logistic (x i) := rfl

/-- The elementwise hyperbolic tangent of an array of extended reals, read at an index. -/
theorem tanh_apply {s : Shape} {φ : FTy} (x : FVec Ideal s φ) (i : s.Idx) : tanh x i = Ideal.tanh (x i) := rfl

end Cert.Lib.ReadAt

end
-- ==== Proof.KernelBlock.lean ====
/-
  One grid point of the kernel: what the body leaves in its two output buffers, read at an index.

  The [8000, 256] buffer is filled by two stores, columns 0 … 127 with the first half of the features and columns
  128 … 255 with the second half; read at (p, q) it is the block's transformed triple tt[p, q]. The [1, 1, 8000] buffer
  is filled by one store; read at (0, 0, p) it is the leaky clamp of the block's score of edge p, since

      (b2 + Σ_{j<128} w2[0, j] · tt[p, j]) + Σ_{j<128} w2[0, 128 + j] · tt[p, 128 + j] = (Σ_{j<256} tt[p, j] · w2[0, j]) + b2

  on the extended reals (a commutative monoid under addition, with a commutative product).
-/
import proofs.«158912_g13245679141183_cont_week2b_1242_17_alg».proof.Proof.Gen.KernelIdeal.Frame
import proofs.«158912_g13245679141183_cont_week2b_1242_17_alg».proof.Proof.Spec
import proofs.«158912_g13245679141183_cont_week2b_1242_17_alg».proof.Proof.KernelPayTT
import proofs.«158912_g13245679141183_cont_week2b_1242_17_alg».proof.Proof.KernelPayScore
import proofs.«158912_g13245679141183_cont_week2b_1242_17_alg».proof.Proof.LibPieceRead
import proofs.«158912_g13245679141183_cont_week2b_1242_17_alg».proof.Proof.LibReadAt

noncomputable section

open scoped BigOperators

namespace Cert.KernelIdeal.Block

open Idealize.ShloMosaic Idealize.ShloMosaic.ValueIdx Cert.KernelIdeal Cert.KernelIdeal.Gen

theorem zeros2 : (![0, 0] : Fin 2 → Nat) = fun _ => 0 := funext fun a => match a with
  | ⟨0, _⟩ => rfl
  | ⟨1, _⟩ => rfl

theorem zeros3 : (![0, 0, 0] : Fin 3 → Nat) = fun _ => 0 := funext fun a => match a with
  | ⟨0, _⟩ => rfl
  | ⟨1, _⟩ => rfl
  | ⟨2, _⟩ => rfl

/-- Under the last store the buffer reads that store's payload: at an index that is the store's rectangle's image of a
    local index, the payload at the local index. -/
theorem canon_cons_at {Val : EltTy → Type} [∀ e, Nonempty (Val e)] {s : Shape} {e : EltTy} (r : Rect s)
    (w : r.shape.Idx → Val e) (L : List (View.Piece Val s e)) (y : s.Idx) (x : r.shape.Idx) (hy : y = r.emb x) :
    View.canon (⟨r, w⟩ :: L) y = w x := by
  subst hy; exact View.canon_cons_emb r w L x

/-- The buffer filled by the two column stores, read at (p, q): the first store's payload at column q when q < 128, the
    second store's at column q - 128 otherwise. -/
theorem canon_two_cols (P1 P4 : FVec Ideal S8000x128 .f32) (p : Fin 8000) (q : Fin 256) :
    View.canon ([⟨r0_8, P1⟩, ⟨r0_6, P4⟩] : List (View.Piece (Elt Ideal) S8000x256 .f32)) (ix2 p q)
      = if h : q.val < 128 then P4 (ix2 p (⟨q.val, h⟩ : Fin 128)) else P1 (ix2 p (⟨q.val - 128, by omega⟩ : Fin 128)) := by
  by_cases h : q.val < 128
  · rw [dif_pos h, PieceRead.canon_cons_of_lt_off _ _ (1 : Fin 2) (show ((ix2 p q : S8000x256.Idx) 1).val < 128 from h)]
    refine canon_cons_at (Val := Elt Ideal) (e := .f32) r0_6 P4 [] (ix2 p q) (ix2 p (⟨q.val, h⟩ : Fin 128)) ?_
    refine funext fun a => Fin.ext ?_
    match a with
    | ⟨0, _⟩ => show p.val = 0 + 1 * p.val; omega
    | ⟨1, _⟩ => show q.val = 0 + 1 * q.val; omega
  · rw [dif_neg h]
    refine canon_cons_at (Val := Elt Ideal) (e := .f32) r0_8 P1 [⟨r0_6, P4⟩] (ix2 p q)
      (ix2 p (⟨q.val - 128, by omega⟩ : Fin 128)) ?_
    refine funext fun a => Fin.ext ?_
    match a with
    | ⟨0, _⟩ => show p.val = 0 + 1 * p.val; omega
    | ⟨1, _⟩ => show q.val = 128 + 1 * (q.val - 128); omega

section Loads

variable (x0 : Vec Ideal S1x1x8000 .i32) (x1 x2 : Vec Ideal S8000x256 .f32) (x3 : Vec Ideal S256x768 .f32)
  (x4 : Vec Ideal S64x256 .f32) (x5 x6 : Vec Ideal S1x256 .f32) (x7 : Vec Ideal S1x1 .f32)

theorem ld0 : View.ld x3 r0_0 = x3 := View.ld_unit_zero zeros2 _ x3
theorem ld1 : View.ld x0 r0_1 = x0 := View.ld_unit_zero zeros3 _ x0
theorem ld2 : View.ld x1 r0_2 = x1 := View.ld_unit_zero zeros2 _ x1
theorem ld3 : View.ld x7 r0_3 = x7 := View.ld_unit_zero zeros2 _ x7
theorem ld4 : View.ld x4 r0_4 = x4 := View.ld_unit_zero zeros2 _ x4

/-- The first 128 entries of a [1, 256] row, loaded: entry (0, j) is the row's entry (0, j). -/
theorem ld5 (j : Fin 128) (J : Fin 256) (hJ : J.val = j.val) :
    View.ld x5 r0_5 (ix2 (0 : Fin 1) j) = x5 (ix2 (0 : Fin 1) J) :=
  Cert.Lib.ReadAt.ld_unit_apply x5 _ _ _ (ix2 (0 : Fin 1) j) (ix2 (0 : Fin 1) J) (fun a => by
    match a with
    | ⟨0, _⟩ => rfl
    | ⟨1, _⟩ => show J.val = 0 + j.val; omega)

/-- The last 128 entries of a [1, 256] row, loaded: entry (0, j) is the row's entry (0, 128 + j). -/
theorem ld7 (j : Fin 128) (J : Fin 256) (hJ : J.val = 128 + j.val) :
    View.ld x5 r0_7 (ix2 (0 : Fin 1) j) = x5 (ix2 (0 : Fin 1) J) :=
  Cert.Lib.ReadAt.ld_unit_apply x5 _ _ _ (ix2 (0 : Fin 1) j) (ix2 (0 : Fin 1) J) (fun a => by
    match a with
    | ⟨0, _⟩ => rfl
    | ⟨1, _⟩ => show J.val = 128 + j.val; omega)

/-- The first store's payload over the loaded blocks is the transformed triple at features 0 … 127. -/
theorem pay4_blockTT (p : Fin 8000) (j : Fin 128) (J : Fin 256) (hJ : J.val = j.val)
    (hid : (x0 (ix3 (0 : Fin 1) (0 : Fin 1) p)).toNat < 64) :
    k0_pay4 (F := Ideal) x3 x0 x1 x2 x4 (View.ld x5 r0_5) (ix2 p j) = Cert.Spec.blockTT x0 x1 x2 x3 x4 x5 p J := by
  rw [pay4_apply]
  exact half_eq_blockTT x0 x1 x2 x3 x4 x5 0 _ _ _ p j J (by omega) (pay3_onehot x0 p hid) (ld5 x5 j J hJ)

/-- The second store's payload over the loaded blocks is the transformed triple at features 128 … 255. -/
theorem pay1_blockTT (p : Fin 8000) (j : Fin 128) (J : Fin 256) (hJ : J.val = 128 + j.val)
    (hid : (x0 (ix3 (0 : Fin 1) (0 : Fin 1) p)).toNat < 64) :
    k0_pay1 (F := Ideal) x3 (k0_pay3 (F := Ideal) x0) x1 x2 x4 (View.ld x5 r0_7) (ix2 p j)
      = Cert.Spec.blockTT x0 x1 x2 x3 x4 x5 p J := by
  rw [pay1_apply]
  exact half_eq_blockTT x0 x1 x2 x3 x4 x5 128 _ _ _ p j J hJ (pay3_onehot x0 p hid) (ld7 x5 j J hJ)

end Loads

/-- The [8000, 256] output buffer after the body, read at (p, q): the block's transformed triple. -/
theorem out8_apply (x0 : Vec Ideal Cert.KernelIdeal.S1x1x8000 .i32) (x1 x2 : Vec Ideal Cert.KernelIdeal.S8000x256 .f32)
    (x3 : Vec Ideal Cert.KernelIdeal.S256x768 .f32) (x4 : Vec Ideal Cert.KernelIdeal.S64x256 .f32)
    (x5 x6 : Vec Ideal Cert.KernelIdeal.S1x256 .f32) (x7 : Vec Ideal Cert.KernelIdeal.S1x1 .f32) (p : Fin 8000) (q : Fin 256)
    (hid : (x0 (ValueIdx.ix3 (0 : Fin 1) (0 : Fin 1) p)).toNat < 64) :
    Cert.KernelIdeal.Gen.out0_8 (F := Ideal) x0 x1 x2 x3 x4 x5 x6 x7 (ValueIdx.ix2 p q) = Cert.Spec.blockTT x0 x1 x2 x3 x4 x5 p q := by
  unfold Cert.KernelIdeal.Gen.out0_8
  rw [canon_two_cols, ld0 x3, ld1 x0, ld2 x1, ld2 x2, ld4 x4]
  by_cases h : q.val < 128
  · rw [dif_pos h]
    exact pay4_blockTT x0 x1 x2 x3 x4 x5 p _ q rfl hid
  · rw [dif_neg h]
    exact pay1_blockTT x0 x1 x2 x3 x4 x5 p _ q (by show q.val = 128 + (q.val - 128); omega) hid

/-- The [1, 1, 8000] output buffer after the body, read at (0, 0, p): the clamp of the block's score of edge p. -/
theorem out9_apply (x0 : Vec Ideal Cert.KernelIdeal.S1x1x8000 .i32) (x1 x2 : Vec Ideal Cert.KernelIdeal.S8000x256 .f32)
    (x3 : Vec Ideal Cert.KernelIdeal.S256x768 .f32) (x4 : Vec Ideal Cert.KernelIdeal.S64x256 .f32)
    (x5 x6 : Vec Ideal Cert.KernelIdeal.S1x256 .f32) (x7 : Vec Ideal Cert.KernelIdeal.S1x1 .f32) (p : Fin 8000)
    (hid : ∀ p' : Fin 8000, (x0 (ValueIdx.ix3 (0 : Fin 1) (0 : Fin 1) p')).toNat < 64) :
    Cert.KernelIdeal.Gen.out0_9 (F := Ideal) x0 x1 x2 x3 x4 x5 x6 x7 (ValueIdx.ix3 (0 : Fin 1) (0 : Fin 1) p)
      = Cert.Spec.leaky (Cert.Spec.blockPre x0 x1 x2 x3 x4 x5 x6 x7 p) := by
  unfold Cert.KernelIdeal.Gen.out0_9
  rw [View.canon_unit_zero zeros3, ld0 x3, ld1 x0, ld2 x1, ld2 x2, ld3 x7, ld4 x4, pay2_apply, pay5_apply]
  refine congrArg Cert.Spec.leaky ?_
  have hA : ∑ j : Fin 128, View.ld x6 r0_5 (ix2 (0 : Fin 1) j) * k0_pay4 (F := Ideal) x3 x0 x1 x2 x4 (View.ld x5 r0_5) (ix2 p j)
      = ∑ j : Fin 128, Cert.Spec.blockTT x0 x1 x2 x3 x4 x5 p (⟨j.val, by omega⟩ : Fin 256)
          * x6 (ix2 (0 : Fin 1) (⟨j.val, by omega⟩ : Fin 256)) :=
    Finset.sum_congr rfl fun j _ => by
      rw [pay4_blockTT x0 x1 x2 x3 x4 x5 p j ⟨j.val, by omega⟩ rfl (hid p), ld5 x6 j ⟨j.val, by omega⟩ rfl, mul_comm]
  have hB : ∑ j : Fin 128, View.ld x6 r0_7 (ix2 (0 : Fin 1) j)
        * k0_pay1 (F := Ideal) x3 (k0_pay3 (F := Ideal) x0) x1 x2 x4 (View.ld x5 r0_7) (ix2 p j)
      = ∑ j : Fin 128, Cert.Spec.blockTT x0 x1 x2 x3 x4 x5 p (⟨128 + j.val, by omega⟩ : Fin 256)
          * x6 (ix2 (0 : Fin 1) (⟨128 + j.val, by omega⟩ : Fin 256)) :=
    Finset.sum_congr rfl fun j _ => by
      rw [pay1_blockTT x0 x1 x2 x3 x4 x5 p j ⟨128 + j.val, by omega⟩ rfl (hid p), ld7 x6 j ⟨128 + j.val, by omega⟩ rfl, mul_comm]
  rw [hA, hB]
  unfold Cert.Spec.blockPre
  rw [Cert.Spec.sum_halves, add_comm (x7 _), add_right_comm]

end Cert.KernelIdeal.Block

end
-- ==== Proof.KernelValue.lean ====
/-
  The kernel's two results as whole arrays.

  Each of the 20 grid points writes back one block of each output: rows 8000·t … 8000·t + 7999 of the [160000, 256]
  array of transformed triples, and plane t of a [20, 1, 8000] array of scores. What a point writes is the body's result on
  its input blocks, which is the whole-array function read at the block's rows; the blocks tile both arrays, so after the
  run each array IS that function. The host then lays the [20, 1, 8000] scores out as a [160000, 1] column: entry (e, 0)
  is entry (e / 8000, 0, e % 8000), the score of edge e.
-/
import proofs.«158912_g13245679141183_cont_week2b_1242_17_alg».proof.Proof.KernelRows
import proofs.«158912_g13245679141183_cont_week2b_1242_17_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first result as one array of the arguments on core c. -/
abbrev tt (c : Dev nD) : S160000x256.Idx → EReal :=
  Cert.Spec.TT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point t writes back to the first output is block t of the transformed triples. -/
theorem flushed8_eq (hid : ∀ (c : Dev nD) (e : Fin 160000), ((m ((c : Thread nD τ).loc main_arg2) : S160000.Idx → BitVec 32) (ix1 e)).toNat < 64)
    (c : Dev nD) (t : Fin cfg0.N) :
    (dats m 0 c).flushed 8 t = ((cfg0.win 8).blk t).view.read (Elt Ideal) (tt m c) := by
  show (cfg0.win 8).cut (grid0.coords t) ((dats m 0 c).after 8 t) = _
  rw [after0_8]
  funext j
  obtain ⟨p, q, rfl⟩ : ∃ (p : Fin 8000) (q : Fin 256), j = ix2 p q := ⟨j 0, j 1, eq_ix2 j⟩
  show out0_8 (iblk m c 0 t) (iblk m c 1 t) (iblk m c 2 t) (iblk m c 3 t) (iblk m c 4 t) (iblk m c 5 t) (iblk m c 6 t) (iblk m c 7 t) (ix2 p q)
    = tt m c (((cfg0.win 8).blk t).view.emb (ix2 p q))
  rw [Cert.KernelIdeal.Block.out8_apply _ _ _ _ _ _ _ _ p q (by rw [iblk0_apply]; exact hid c _), blockTT_eq]
  obtain ⟨-, -, -, -, -, -, -, -, ⟨e0, e1⟩, -⟩ := idx_facts t
  have h0 : (((cfg0.win 8).blk t).view.emb (ix2 p q)) 0 = row t p :=
    Fin.ext (by show win0_8.index t 0 * 8000 + 1 * p.val = 8000 * t.val + p.val; rw [e0]; omega)
  have h1 : (((cfg0.win 8).blk t).view.emb (ix2 p q)) 1 = q :=
    Fin.ext (by show win0_8.index t 1 * 256 + 1 * q.val = q.val; rw [e1]; omega)
  show _ = Cert.Spec.ttEntry _ _ _ _ _ _ ((((cfg0.win 8).blk t).view.emb (ix2 p q)) 0) ((((cfg0.win 8).blk t).view.emb (ix2 p q)) 1)
  rw [h0, h1]

/-- An index is in point t's block of the first output iff each coordinate is in the block's range. -/
theorem mem_blk8 (t : Fin cfg0.N) (i : S160000x256.Idx) :
    i ∈ ((cfg0.win 8).blk t).view.set ↔ ∀ a : Fin 2, win0_8.index t a * S8000x256.size a ≤ (i a).val ∧ (i a).val < win0_8.index t a * S8000x256.size a + S8000x256.size a := by
  show i ∈ ((View.whole main_v3_0).slice (win0_8.rect t)).set ↔ _
  rw [View.set_slice_whole, Rect.mem_set_unit]
  exact Iff.rfl

/-- Row r of the first output lies in the block of point r / 8000. -/
theorem cover8 (i : S160000x256.Idx) : ∃ t : Fin cfg0.N, (cfg0.win 8).flush t = true ∧ i ∈ ((cfg0.win 8).blk t).view.set := by
  have hi0 : (i 0).val < 160000 := (i 0).isLt
  have hi1 : (i 1).val < 256 := (i 1).isLt
  have hN : cfg0.N = 20 := N_0
  refine ⟨⟨(i 0).val / 8000, by omega⟩, flush0_8 _, ?_⟩
  rw [mem_blk8]
  obtain ⟨-, -, -, -, -, -, -, -, ⟨e0, e1⟩, -⟩ := idx_facts ⟨(i 0).val / 8000, by omega⟩
  intro a
  match a with
  | ⟨0, _⟩ =>
    show win0_8.index _ (0 : Fin 2) * 8000 ≤ (i 0).val ∧ (i 0).val < win0_8.index _ (0 : Fin 2) * 8000 + 8000
    rw [e0]; show (i 0).val / 8000 * 8000 ≤ (i 0).val ∧ (i 0).val < (i 0).val / 8000 * 8000 + 8000; omega
  | ⟨1, _⟩ =>
    show win0_8.index _ (1 : Fin 2) * 256 ≤ (i 1).val ∧ (i 1).val < win0_8.index _ (1 : Fin 2) * 256 + 256
    rw [e1]; omega

/-- The first output after the run. -/
theorem final8 (hid : ∀ (c : Dev nD) (e : Fin 160000), ((m ((c : Thread nD τ).loc main_arg2) : S160000.Idx → BitVec 32) (ix1 e)).toNat < 64)
    (c : Dev nD) : (dats m 0 c).arrAt 8 cfg0.N = tt m c :=
  (dats m 0 c).arrAt_eq_of_cover 8 (tt m c) (fun t _ => flushed8_eq m hid c t) cover8

/-! ## The second output -/

/-- Row p of block a, for a block number below 20. -/
def rowOf (a : Fin 20) (p : Fin 8000) : Fin 160000 := ⟨8000 * a.val + p.val, by omega⟩

/-- The kernel's second output as one [20, 1, 8000] array of the arguments on core c: entry (a, 0, p) is the score of
    edge 8000·a + p. -/
abbrev scores (c : Dev nD) : S20x1x8000.Idx → EReal := fun i =>
  Cert.Spec.leaky (Cert.Spec.preEntry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (rowOf (i 0) (i 2)))

/-- What point t writes back to the second output is plane t of the scores. -/
theorem flushed9_eq (hid : ∀ (c : Dev nD) (e : Fin 160000), ((m ((c : Thread nD τ).loc main_arg2) : S160000.Idx → BitVec 32) (ix1 e)).toNat < 64)
    (c : Dev nD) (t : Fin cfg0.N) :
    (dats m 0 c).flushed 9 t = ((cfg0.win 9).blk t).view.read (Elt Ideal) (scores m c) := by
  show (cfg0.win 9).cut (grid0.coords t) ((dats m 0 c).after 9 t) = _
  rw [after0_9]
  funext j
  obtain ⟨p, rfl⟩ : ∃ p : Fin 8000, j = ix3 (0 : Fin 1) (0 : Fin 1) p := ⟨j 2, funext fun d => Fin.ext (by
    match d with
    | ⟨0, _⟩ => show (j 0).val = 0; have h : (j 0).val < 1 := (j 0).isLt; omega
    | ⟨1, _⟩ => show (j 1).val = 0; have h : (j 1).val < 1 := (j 1).isLt; omega
    | ⟨2, _⟩ => rfl)⟩
  show out0_9 (iblk m c 0 t) (iblk m c 1 t) (iblk m c 2 t) (iblk m c 3 t) (iblk m c 4 t) (iblk m c 5 t) (iblk m c 6 t) (iblk m c 7 t) (ix3 (0 : Fin 1) (0 : Fin 1) p)
    = scores m c (((cfg0.win 9).blk t).view.emb (ix3 (0 : Fin 1) (0 : Fin 1) p))
  rw [Cert.KernelIdeal.Block.out9_apply _ _ _ _ _ _ _ _ p (fun p' => by rw [iblk0_apply]; exact hid c _), blockPre_eq]
  obtain ⟨-, -, -, -, -, -, -, -, -, ⟨e0, e1, e2⟩⟩ := idx_facts t
  have h : rowOf ((((cfg0.win 9).blk t).view.emb (ix3 (0 : Fin 1) (0 : Fin 1) p)) 0) ((((cfg0.win 9).blk t).view.emb (ix3 (0 : Fin 1) (0 : Fin 1) p)) 2) = row t p :=
    Fin.ext (by
      show 8000 * (win0_9.index t 0 * 1 + 1 * 0) + (win0_9.index t 2 * 8000 + 1 * p.val) = 8000 * t.val + p.val
      rw [e0, e2]; omega)
  show _ = Cert.Spec.leaky (Cert.Spec.preEntry _ _ _ _ _ _ _ _ (rowOf ((((cfg0.win 9).blk t).view.emb (ix3 (0 : Fin 1) (0 : Fin 1) p)) 0) ((((cfg0.win 9).blk t).view.emb (ix3 (0 : Fin 1) (0 : Fin 1) p)) 2)))
  rw [h]

/-- An index is in point t's block of the second output iff each coordinate is in the block's range. -/
theorem mem_blk9 (t : Fin cfg0.N) (i : S20x1x8000.Idx) :
    i ∈ ((cfg0.win 9).blk t).view.set ↔ ∀ a : Fin 3, win0_9.index t a * S1x1x8000.size a ≤ (i a).val ∧ (i a).val < win0_9.index t a * S1x1x8000.size a + S1x1x8000.size a := by
  show i ∈ ((View.whole main_v3_1).slice (win0_9.rect t)).set ↔ _
  rw [View.set_slice_whole, Rect.mem_set_unit]
  exact Iff.rfl

/-- Plane a of the second output is the block of point a. -/
theorem cover9 (i : S20x1x8000.Idx) : ∃ t : Fin cfg0.N, (cfg0.win 9).flush t = true ∧ i ∈ ((cfg0.win 9).blk t).view.set := by
  have hi0 : (i 0).val < 20 := (i 0).isLt
  have hi1 : (i 1).val < 1 := (i 1).isLt
  have hi2 : (i 2).val < 8000 := (i 2).isLt
  have hN : cfg0.N = 20 := N_0
  refine ⟨⟨(i 0).val, by omega⟩, flush0_9 _, ?_⟩
  rw [mem_blk9]
  obtain ⟨-, -, -, -, -, -, -, -, -, ⟨e0, e1, e2⟩⟩ := idx_facts ⟨(i 0).val, by omega⟩
  intro a
  match a with
  | ⟨0, _⟩ =>
    show win0_9.index _ (0 : Fin 3) * 1 ≤ (i 0).val ∧ (i 0).val < win0_9.index _ (0 : Fin 3) * 1 + 1
    rw [e0]; show (i 0).val * 1 ≤ (i 0).val ∧ (i 0).val < (i 0).val * 1 + 1; omega
  | ⟨1, _⟩ =>
    show win0_9.index _ (1 : Fin 3) * 1 ≤ (i 1).val ∧ (i 1).val < win0_9.index _ (1 : Fin 3) * 1 + 1
    rw [e1]; omega
  | ⟨2, _⟩ =>
    show win0_9.index _ (2 : Fin 3) * 8000 ≤ (i 2).val ∧ (i 2).val < win0_9.index _ (2 : Fin 3) * 8000 + 8000
    rw [e2]; omega

/-- The second output after the run. -/
theorem final9 (hid : ∀ (c : Dev nD) (e : Fin 160000), ((m ((c : Thread nD τ).loc main_arg2) : S160000.Idx → BitVec 32) (ix1 e)).toNat < 64)
    (c : Dev nD) : (dats m 0 c).arrAt 9 cfg0.N = scores m c :=
  (dats m 0 c).arrAt_eq_of_cover 9 (scores m c) (fun t _ => flushed9_eq m hid c t) cover9

/-! ## After the kernel: the score column -/

/-- The second result as one array of the arguments on core c. -/
abbrev attn (c : Dev nD) : S160000x1.Idx → EReal :=
  Cert.Spec.ATTN (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The host's reshape of the scores to a column, read at (e, 0): the score of edge e. -/
theorem tail_v4 (hid : ∀ (c : Dev nD) (e : Fin 160000), ((m ((c : Thread nD τ).loc main_arg2) : S160000.Idx → BitVec 32) (ix1 e)).toNat < 64)
    (c : Dev nD) : Pipeline.afterTail₀ cfgs (dats m) 0 (V0 m) [hostOps1] c main_v4 = attn m c := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_1) = scores m c :=
    (Pipeline.withArrays_arr spec0 launch0.win.arr_inj c _ _ 9).trans (final9 m hid c)
  show shapeCast S160000x1 (Pipeline.withArrays (cfgs 0).spec c (V0 m c) (fun w => (dats m 0 c).arrAt w (cfgs 0).N) (Proc.devRef .tc main_v3_1))
    shapeCasts_S20x1x8000_S160000x1 = attn m c
  rw [hw]
  funext i
  obtain ⟨e, z, rfl⟩ : ∃ (e : Fin 160000) (z : Fin 1), i = ix2 e z := ⟨i 0, i 1, eq_ix2 i⟩
  have he := e.isLt
  have hz := z.isLt
  refine (shapeCast_apply (scores m c) shapeCasts_S20x1x8000_S160000x1 (ix2 e z)
    (ix3 (⟨e.val / 8000, by omega⟩ : Fin 20) (0 : Fin 1) (⟨e.val % 8000, by omega⟩ : Fin 8000)) ?_).trans ?_
  · refine (Shape.rowMajor_val_three (d := ![20, 1, 8000]) _).trans ((Shape.rowMajor_val_two (d := ![160000, 1]) _).trans ?_).symm
    show e.val * 1 + z.val = (e.val / 8000 * 1 + 0) * 8000 + e.val % 8000
    omega
  · show Cert.Spec.leaky (Cert.Spec.preEntry _ _ _ _ _ _ _ _ (rowOf (⟨e.val / 8000, by omega⟩ : Fin 20) (⟨e.val % 8000, by omega⟩ : Fin 8000)))
      = Cert.Spec.leaky (Cert.Spec.preEntry _ _ _ _ _ _ _ _ e)
    rw [show rowOf (⟨e.val / 8000, by omega⟩ : Fin 20) (⟨e.val % 8000, by omega⟩ : Fin 8000) = e from
      Fin.ext (by show 8000 * (e.val / 8000) + e.val % 8000 = e.val; omega)]

/-! ## The run, read -/

/-- Where every relation number is below 64: every weakly fair execution of the program terminates with the first result
    at the transformed triples, the second at the clamped scores, and the arguments unchanged. -/
theorem run (hid : ∀ (c : Dev nD) (e : Fin 160000), ((m ((c : Thread nD τ).loc main_arg2) : S160000.Idx → BitVec 32) (ix1 e)).toNat < 64) :
    θ_run (defs (F := Ideal)) (onTc (τ := τ) (main (F := Ideal))) ⟨m, fun _ => 0, ρ⟩ (fun r => ∀ c : Dev nD,
      r.2.mem ((c.tc : Thread nD τ).loc main_v3_0) = tt m c
      ∧ r.2.mem ((c.tc : Thread nD τ).loc main_v4) = attn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 8).trans (final8 m hid c),
      ((h c).2 main_v4 (Pipeline.mem_restRefs_of main_v4 (by decide) (by decide))).trans (tail_v4 m hid c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.KernelIdeal.Whole

end
-- ==== Proof.RefRun.lean ====
/-
  The reference program's run, read back.

  @main calls two module-local functions: the row lookup (which wraps a negative relation number by 64, gathers the
  row, and masks rows whose wrapped number falls outside [0, 63]) and the leaky clamp (a comparison with zero, a
  product with the slope, a select). With each call's body written out at its call site over that call's own
  buffers, @main is one straight line of forty-two host operations. Every weakly fair execution of that line
  terminates with each buffer at the fold of the operations' results over the launch contents; read at the two
  result buffers this gives two closed terms of the eight arguments, tt6 and attn12, and the arguments are left
  as they were.
-/
import proofs.«158912_g13245679141183_cont_week2b_1242_17_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- @main's forty-two operations in order, the two calls written out: the row lookup's twenty-three (the select of
    the wrapped relation number is the inner call's one operation), @main's own twelve, the slope constant, and
    the leaky clamp's seven (its select is the inner call's one operation). -/
abbrev ops : List (HloOp τ sig (Elt Ideal)) :=
  [ TRef.nullary main_call0.c (constantI S_ 32 0#32),
    TRef.unary main_call0.c main_call0.v0 (broadcastInDim S160000 ![] bcast_S_S160000),
    TRef.binary (.of main_arg2) main_call0.v0 main_call0.v1 (cmpi .slt),
    TRef.nullary main_call0.c_0 (constantI S_ 32 64#32),
    TRef.unary main_call0.c_0 main_call0.v2 (broadcastInDim S160000 ![] bcast_S_S160000),
    TRef.binary (.of main_arg2) main_call0.v2 main_call0.v3 addi,
    TRef.ternary main_call0.v1 main_call0.v3 (.of main_arg2) main_call0.call0.v0 select,
    TRef.unary main_call0.call0.v0 main_call0.v5 (broadcastInDim S160000x1 ![0] bcast_S160000_S160000x1_0),
    TRef.nullary main_call0.c_1 (constantI S1 32 63#32),
    TRef.nullary main_call0.c_2 (constantI S_ 32 0#32),
    TRef.unary main_call0.c_2 main_call0.v6 (broadcastInDim S160000x1 ![] bcast_S_S160000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S160000x1 ![0, 1] bcast_S1x1_S160000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S160000x1_S160000_d1 h_S_),
    TRef.binary (.of main_arg3) main_call0.v5 main_call0.v13 (fun x i => Host.gather gather_S64x256_S160000x1_S160000x256_1_0_n_n_0_1_1256 x i),
    TRef.unary main_call0.v12 main_call0.v14 (broadcastInDim S160000x256 ![0] bcast_S160000_S160000x256_0),
    TRef.nullary main_call0.cst (constant (F := Ideal) S_ .f32 0x7FC00000#32),
    TRef.unary main_call0.cst main_call0.v15 (broadcastInDim S160000x256 ![] bcast_S_S160000x256),
    TRef.ternary main_call0.v14 main_call0.v13 main_call0.v15 main_call0.v16 select,
    nary ![main_arg0, main_v0, main_arg1] main_v1 (fun u => concatenate S160000x768 1 [⟨S160000x256, u 0⟩, ⟨S160000x256, u 1⟩, ⟨S160000x256, u 2⟩] concatenates_S160000x256_S160000x256_S160000x256_S160000x768_d1),
    unary main_arg4 main_v2 ((transpose S768x256 [1, 0] · transposes_S256x768_S768x256_1_0) : (⟨S256x768, .f32⟩ : BufTy).Contents (Elt Ideal) → (⟨S768x256, .f32⟩ : BufTy).Contents (Elt Ideal)),
    binary main_v1 main_v2 main_v3 ((fun l r => Host.dotGeneral (F := Ideal) (φ₁ := .f32) (φ₂ := .f32) dot_S160000x768_S768x256_S160000x256_1_0_0_1_n_n none l r) : (⟨S160000x768, .f32⟩ : BufTy).Contents (Elt Ideal) → (⟨S768x256, .f32⟩ : BufTy).Contents (Elt Ideal) → (⟨S160000x256, .f32⟩ : BufTy).Contents (Elt Ideal)),
    unary main_arg5 main_v4 (broadcastInDim S1x256 ![1] bcast_S256_S1x256_1 : (⟨S256, .f32⟩ : BufTy).Contents (Elt Ideal) → (⟨S1x256, .f32⟩ : BufTy).Contents (Elt Ideal)),
    unary main_v4 main_v5 (broadcastInDim S160000x256 ![0, 1] bcast_S1x256_S160000x256_0_1 : (⟨S1x256, .f32⟩ : BufTy).Contents (Elt Ideal) → (⟨S160000x256, .f32⟩ : BufTy).Contents (Elt Ideal)),
    binary main_v3 main_v5 main_v6 (addf (F := Ideal) (φ := .f32) : (⟨S160000x256, .f32⟩ : BufTy).Contents (Elt Ideal) → (⟨S160000x256, .f32⟩ : BufTy).Contents (Elt Ideal) → (⟨S160000x256, .f32⟩ : BufTy).Contents (Elt Ideal)),
    unary main_arg6 main_v7 ((transpose S256x1 [1, 0] · transposes_S1x256_S256x1_1_0) : (⟨S1x256, .f32⟩ : BufTy).Contents (Elt Ideal) → (⟨S256x1, .f32⟩ : BufTy).Contents (Elt Ideal)),
    binary main_v6 main_v7 main_v8 ((fun l r => Host.dotGeneral (F := Ideal) (φ₁ := .f32) (φ₂ := .f32) dot_S160000x256_S256x1_S160000x1_1_0_0_1_n_n none l r) : (⟨S160000x256, .f32⟩ : BufTy).Contents (Elt Ideal) → (⟨S256x1, .f32⟩ : BufTy).Contents (Elt Ideal) → (⟨S160000x1, .f32⟩ : BufTy).Contents (Elt Ideal)),
    unary main_arg7 main_v9 (broadcastInDim S1x1 ![1] bcast_S1_S1x1_1 : (⟨S1, .f32⟩ : BufTy).Contents (Elt Ideal) → (⟨S1x1, .f32⟩ : BufTy).Contents (Elt Ideal)),
    unary main_v9 main_v10 (broadcastInDim S160000x1 ![0, 1] bcast_S1x1_S160000x1_0_1 : (⟨S1x1, .f32⟩ : BufTy).Contents (Elt Ideal) → (⟨S160000x1, .f32⟩ : BufTy).Contents (Elt Ideal)),
    binary main_v8 main_v10 main_v11 (addf (F := Ideal) (φ := .f32) : (⟨S160000x1, .f32⟩ : BufTy).Contents (Elt Ideal) → (⟨S160000x1, .f32⟩ : BufTy).Contents (Elt Ideal) → (⟨S160000x1, .f32⟩ : BufTy).Contents (Elt Ideal)),
    nullary main_cst (constant (F := Ideal) S_ .f32 0x3E4CCCCD#32),
    TRef.nullary main_call1.cst (constant (F := Ideal) S_ .f32 0x00000000#32),
    TRef.unary main_call1.cst main_call1.v0 (broadcastInDim S160000x1 ![] bcast_S_S160000x1),
    TRef.binary (.of main_v11) main_call1.v0 main_call1.v1 (cmpf (F := Ideal) (φ := .f32) .oge),
    TRef.unary (.of main_cst) main_call1.v2 id,
    TRef.unary main_call1.v2 main_call1.v3 (broadcastInDim S160000x1 ![] bcast_S_S160000x1),
    TRef.binary main_call1.v3 (.of main_v11) main_call1.v4 (mulf (F := Ideal) (φ := .f32)),
    TRef.ternary main_call1.v1 (.of main_v11) main_call1.v4 main_call1.call0.v0 select ]

-- forty-two binds re-associated: the rewrite under the chain recurses once per statement
set_option maxRecDepth 1024 in
/-- @main is that straight line: the functions' definitions unfolded at their calls and the records at their
    fields, both sides are one chain of host steps once sequencing is reassociated. -/
theorem main_eq (c : Dev nD) : main (F := Ideal) c = seq ops := by
  simp only [main, fn_take.body, fn_where.body, fn_leaky_relu.body, fn_where_0.body, seq, bind_assoc, pure_bind]

/-! ## The two results as terms of the arguments, stage by stage -/

/-- The relation numbers, a negative one (signed reading) moved up by 64. -/
def wrapped (a2 : IVec S160000 32) : IVec S160000 32 :=
  select (cmpi .slt a2 (broadcastInDim S160000 ![] bcast_S_S160000 (constantI S_ 32 0#32)))
    (addi a2 (broadcastInDim S160000 ![] bcast_S_S160000 (constantI S_ 32 64#32))) a2

/-- The wrapped numbers as a column: the gather's index table. -/
def idxCol (a2 : IVec S160000 32) : IVec S160000x1 32 :=
  broadcastInDim S160000x1 ![0] bcast_S160000_S160000x1_0 (wrapped a2)

/-- Per edge, whether the wrapped number lies in [0, 63] (signed reading): the conjunction of the two comparisons,
    folded along the column's unit axis from true. -/
def inRange (a2 : IVec S160000 32) : IVec S160000 1 :=
  Host.reduce IntOp.andi
    (andi (cmpi .sge (idxCol a2) (broadcastInDim S160000x1 ![] bcast_S_S160000x1 (constantI S_ 32 0#32)))
      (cmpi .sle (idxCol a2)
        (broadcastInDim S160000x1 ![0, 1] bcast_S1x1_S160000x1_0_1 (broadcastInDim S1x1 ![1] bcast_S1_S1x1_1 (constantI S1 32 63#32)))))
    (constantI S_ 1 1#1) reducesTo_S160000x1_S160000_d1 h_S_

/-- The looked-up rows: row e is the table's row at the wrapped number of edge e (the gather clamps it into the
    table) where that number is in range, and the quiet NaN elsewhere. -/
def relRows (a2 : IVec S160000 32) (a3 : FVec Ideal S64x256 .f32) : FVec Ideal S160000x256 .f32 :=
  select (broadcastInDim S160000x256 ![0] bcast_S160000_S160000x256_0 (inRange a2))
    (Host.gather gather_S64x256_S160000x1_S160000x256_1_0_n_n_0_1_1256 a3 (idxCol a2))
    (broadcastInDim S160000x256 ![] bcast_S_S160000x256 (constant (F := Ideal) S_ .f32 0x7FC00000#32))

/-- The three embeddings side by side: ego, looked-up relation rows, neighbour. -/
def cat (a0 a1 : FVec Ideal S160000x256 .f32) (a2 : IVec S160000 32) (a3 : FVec Ideal S64x256 .f32) :
    FVec Ideal S160000x768 .f32 :=
  concatenate S160000x768 1 [⟨S160000x256, a0⟩, ⟨S160000x256, relRows a2 a3⟩, ⟨S160000x256, a1⟩]
    concatenates_S160000x256_S160000x256_S160000x256_S160000x768_d1

/-- The first result: the side-by-side embeddings times the transposed weight, plus the bias along rows. -/
def tt6 (a0 a1 : FVec Ideal S160000x256 .f32) (a2 : IVec S160000 32) (a3 : FVec Ideal S64x256 .f32)
    (a4 : FVec Ideal S256x768 .f32) (a5 : FVec Ideal S256 .f32) : FVec Ideal S160000x256 .f32 :=
  addf (F := Ideal) (φ := .f32)
    (Host.dotGeneral (F := Ideal) (φ₁ := .f32) (φ₂ := .f32) dot_S160000x768_S768x256_S160000x256_1_0_0_1_n_n none (cat a0 a1 a2 a3)
      (transpose S768x256 [1, 0] a4 transposes_S256x768_S768x256_1_0))
    (broadcastInDim S160000x256 ![0, 1] bcast_S1x256_S160000x256_0_1 (broadcastInDim S1x256 ![1] bcast_S256_S1x256_1 a5))

/-- The score before the clamp: the first result times the transposed score weights, plus the score bias. -/
def pre11 (a0 a1 : FVec Ideal S160000x256 .f32) (a2 : IVec S160000 32) (a3 : FVec Ideal S64x256 .f32)
    (a4 : FVec Ideal S256x768 .f32) (a5 : FVec Ideal S256 .f32) (a6 : FVec Ideal S1x256 .f32) (a7 : FVec Ideal S1 .f32) :
    FVec Ideal S160000x1 .f32 :=
  addf (F := Ideal) (φ := .f32)
    (Host.dotGeneral (F := Ideal) (φ₁ := .f32) (φ₂ := .f32) dot_S160000x256_S256x1_S160000x1_1_0_0_1_n_n none (tt6 a0 a1 a2 a3 a4 a5)
      (transpose S256x1 [1, 0] a6 transposes_S1x256_S256x1_1_0))
    (broadcastInDim S160000x1 ![0, 1] bcast_S1x1_S160000x1_0_1 (broadcastInDim S1x1 ![1] bcast_S1_S1x1_1 a7))

/-- The second result: the score where it is at least zero, the slope times the score elsewhere. -/
def attn12 (a0 a1 : FVec Ideal S160000x256 .f32) (a2 : IVec S160000 32) (a3 : FVec Ideal S64x256 .f32)
    (a4 : FVec Ideal S256x768 .f32) (a5 : FVec Ideal S256 .f32) (a6 : FVec Ideal S1x256 .f32) (a7 : FVec Ideal S1 .f32) :
    FVec Ideal S160000x1 .f32 :=
  select
    (cmpf (F := Ideal) (φ := .f32) .oge (pre11 a0 a1 a2 a3 a4 a5 a6 a7)
      (broadcastInDim S160000x1 ![] bcast_S_S160000x1 (constant (F := Ideal) S_ .f32 0x00000000#32)))
    (pre11 a0 a1 a2 a3 a4 a5 a6 a7)
    (mulf (F := Ideal) (φ := .f32) (broadcastInDim S160000x1 ![] bcast_S_S160000x1 (constant (F := Ideal) S_ .f32 0x3E4CCCCD#32))
      (pre11 a0 a1 a2 a3 a4 a5 a6 a7))

/-! ## The fold of the line at the result and argument buffers -/

attribute [local irreducible] Host.reduce Host.gather concatenate transpose broadcastInDim in
set_option maxRecDepth 8192 in
set_option maxHeartbeats 400000 in
/-- The fold at the first result's buffer is tt6 of the arguments' contents, by computation: the fold unrolled, each
    operation's result decides whether the buffer read is the one it writes, and the typed references' transports
    are the identity at these literal references. The folds and searches inside the reduce, the gather and the shape
    operations are kept closed meanwhile: the equation never looks inside them. -/
theorem out6_eq (V : Valuation τ sig (Elt Ideal)) :
    after ops V (main_v6 : DevRef τ sig)
      = tt6 (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

attribute [local irreducible] Host.reduce Host.gather concatenate transpose broadcastInDim in
set_option maxRecDepth 8192 in
set_option maxHeartbeats 400000 in
/-- The fold at the second result's buffer is attn12 of the arguments' contents, in the same way (the slope
    constant's conversion to its own type is the identity). -/
theorem out12_eq (V : Valuation τ sig (Elt Ideal)) :
    after ops V (main_v12 : DevRef τ sig)
      = attn12 (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  simp only [after_cons, after_nil]
  rfl

/-! No operation writes an argument's buffer: the fold leaves each where it was. -/

theorem arg0_eq (V : Valuation τ sig (Elt Ideal)) : after ops V (main_arg0 : DevRef τ sig) = V (main_arg0 : DevRef τ sig) := by
  simp only [after_cons, after_nil]
  rfl

theorem arg1_eq (V : Valuation τ sig (Elt Ideal)) : after ops V (main_arg1 : DevRef τ sig) = V (main_arg1 : DevRef τ sig) := by
  simp only [after_cons, after_nil]
  rfl

theorem arg2_eq (V : Valuation τ sig (Elt Ideal)) : after ops V (main_arg2 : DevRef τ sig) = V (main_arg2 : DevRef τ sig) := by
  simp only [after_cons, after_nil]
  rfl

theorem arg3_eq (V : Valuation τ sig (Elt Ideal)) : after ops V (main_arg3 : DevRef τ sig) = V (main_arg3 : DevRef τ sig) := by
  simp only [after_cons, after_nil]
  rfl

theorem arg4_eq (V : Valuation τ sig (Elt Ideal)) : after ops V (main_arg4 : DevRef τ sig) = V (main_arg4 : DevRef τ sig) := by
  simp only [after_cons, after_nil]
  rfl

theorem arg5_eq (V : Valuation τ sig (Elt Ideal)) : after ops V (main_arg5 : DevRef τ sig) = V (main_arg5 : DevRef τ sig) := by
  simp only [after_cons, after_nil]
  rfl

theorem arg6_eq (V : Valuation τ sig (Elt Ideal)) : after ops V (main_arg6 : DevRef τ sig) = V (main_arg6 : DevRef τ sig) := by
  simp only [after_cons, after_nil]
  rfl

theorem arg7_eq (V : Valuation τ sig (Elt Ideal)) : after ops V (main_arg7 : DevRef τ sig) = V (main_arg7 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

/-- On every device, from any memory with zero counters: every weakly fair execution of @main terminates with the
    two results at tt6 and attn12 of the arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v6) = tt6 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v12) = attn12 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run defs _ _).mono (fun _ h c => ⟨(h c main_v6).trans (out6_eq _), (h c main_v12).trans (out12_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.RefValue

end
-- ==== Proof.LibHostMatrix.lean ====
/-
  Host-side readings of vectors and matrices at an index, for any sizes: a vector reshaped to a one-row matrix, a
  matrix transposed, a scalar constant broadcast to any shape, and — on the extended reals — the host's sum of a
  matrix along its last axis as the initial value plus the finite sum of the row.
-/
import Idealize.ShloMosaic.Lib.ValueIdx
import Idealize.ShloMosaic.Lib.Pipeline.Value
import Idealize.ShloMosaic.PureOps.Ideal.Laws

noncomputable section

open scoped BigOperators

namespace Cert.Lib.HostMatrix

open Idealize.ShloMosaic Idealize.ShloMosaic.ValueIdx

/-- A vector reshaped to a one-row matrix: entry (0, q) is the vector's entry q. -/
theorem rowOfVec_apply {α : Type} {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A matrix transposed: entry (p, q) of the transpose is entry (q, p). -/
theorem transposed_apply {α : Type} {a b : Nat} (x : (⟨2, ![a, b]⟩ : Shape).Idx → α)
    (h : (⟨2, ![a, b]⟩ : Shape).Transposes [(1 : Fin 2), 0] ⟨2, ![b, a]⟩) (p : Fin b) (q : Fin a) :
    transpose (⟨2, ![b, a]⟩ : Shape) [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- A scalar constant broadcast to any shape: every entry is the constant's value. -/
theorem splat_apply {s : Shape} (h : (⟨0, ![]⟩ : Shape).BroadcastsInDim s (![] : Fin 0 → Fin s.rank)) (w : BitVec 32)
    (j : s.Idx) : broadcastInDim s ![] h (constant (F := Ideal) ⟨0, ![]⟩ .f32 w) j = Ideal.ofBits .f32 w :=
  broadcastInDim_apply _ h _ j ix0 (fun a => a.elim0)

/-- Over a row index p, the source index of a reduction along the last axis with coordinate k appends k. -/
theorem lift_lastAxis {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

/-- The host's sum of a matrix along its last axis, at row p: the initial value plus the finite sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (lift_lastAxis h p k))

end Cert.Lib.HostMatrix

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibRowGatherScatter.lean ====
/-
  Row gather and row scatter-add, read at an index.

  `x[idx]` of a matrix `x : [N, C]` at a vector of `E` row numbers lowers to `stablehlo.gather` with offset_dims [1],
  collapsed_slice_dims [0], start_index_map [0], index_vector_dim 1 and slice sizes [1, C] over the row numbers as an
  `[E, 1]` array: result element `(e, k)` is `x` at row `idx[e, 0]` — read signed and clamped into `[0, N − 1]` — and
  column `k` (`gather_rows_apply`).

  `segment_sum(u, idx)` of updates `u : [E, C]` into `[N, C]` lowers to `stablehlo.scatter` with an `add` body,
  update_window_dims [1], inserted_window_dims [0], scatter_dims_to_operand_dims [0], index_vector_dim 1: at the extended
  reals element `(n, c)` of the result is the operand's plus the sum, over the rows `e` whose row number `idx[e, 0]`, read
  signed and NOT clamped, is `n`, of `u (e, c)` (`scatterAdd_rows_apply`). A row number outside `[0, N)` lands nowhere.

  Both for any sizes `N`, `E`, `C` and any index width.
-/
import Idealize.ShloMosaic.Lib.ValueIdx
import Idealize.ShloMosaic.PureOps.Ideal.Laws

noncomputable section

open scoped BigOperators

namespace Idealize.ShloMosaic.RowIndexing

open Idealize.ShloMosaic Idealize.ShloMosaic.ValueIdx

/-- The entry `[e, 0]` of an `[E, 1]` array of row numbers. -/
abbrev rowAt {E : Nat} (e : Fin E) : (⟨2, ![E, 1]⟩ : Shape).Idx := ix2 e (⟨0, Nat.one_pos⟩ : Fin 1)

/-! ## The gather of whole rows -/

section Gather
variable {α : Type}

/-- The dimension numbers of a gather of whole rows of an `[N, C]` operand at `[E, 1]` row numbers. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (rowAt e)).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = rowAt e := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        fun h => absurd (List.mem_singleton.mp h) (show ¬ ((1 : Fin 2) = 0) by decide))]
    have ho : (rowGatherDims N E C wf).offCoord (ix2 e k) 1 = k.val := by
      unfold GatherDims.offCoord
      rw [dif_pos (show (1 : Fin 2) ∈ (rowGatherDims N E C wf).sKept from (GatherDims.mem_sKept _ _).mpr
        ⟨fun h => absurd (List.mem_singleton.mp h) (show ¬ ((1 : Fin 2) = 0) by decide), List.not_mem_nil⟩)]
      rfl
    rw [hs, ho, Nat.add_zero, Nat.zero_add]

end Gather

/-! ## The scatter-add of whole rows -/

section Scatter

/-- The dimension numbers of a scatter of `[E, C]` update rows into an `[N, C]` operand at `[E, 1]` row numbers. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at the row number `idx[e, 0]`, read signed. -/
theorem rowScatter_start0 : (rowScatterDims N E C wf).start (ix2 e k) idx 0 = (idx (rowAt e)).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

/-- On the column axis it starts at `0`. -/
theorem rowScatter_start1 : (rowScatterDims N E C wf).start (ix2 e k) idx 1 = 0 := by
  unfold ScatterDims.start
  rw [dif_neg (show ¬ (1 : Fin 2) ∈ (rowScatterDims N E C wf).scatterDimsToOperandDims from
    fun h => absurd (List.mem_singleton.mp h) (show ¬ ((1 : Fin 2) = 0) by decide))]

/-- The row axis is inserted: the window coordinate there is `0`. -/
theorem rowScatter_window0 : (rowScatterDims N E C wf).window (ix2 e k) 0 = 0 := by
  unfold ScatterDims.window
  rw [dif_neg]
  intro h
  have : (0 : Fin 2) ∈ (List.finRange 2).filter (fun a => a ∉ [(0 : Fin 2)]) := h
  simp at this

/-- On the column axis the window coordinate is the update's column. -/
theorem rowScatter_window1 : (rowScatterDims N E C wf).window (ix2 e k) 1 = k.val := by
  unfold ScatterDims.window
  rw [dif_pos]
  · rfl
  · show (1 : Fin 2) ∈ (List.finRange 2).filter (fun a => a ∉ [(0 : Fin 2)])
    simp

/-- Update `(e, k)` lands at `(n, c)` exactly when its row number, read signed, is `n` and `k = c`. -/
theorem rowScatter_resultIdx_eq_some_iff (n : Fin N) (c : Fin C) :
    (rowScatterDims N E C wf).resultIdx? (ix2 e k) idx = some (ix2 n c)
      ↔ (idx (rowAt e)).toInt = (n.val : Int) ∧ k = c := by
  have hs0 := rowScatter_start0 wf idx e k
  have hs1 := rowScatter_start1 wf idx e k
  have hw0 := rowScatter_window0 wf e k
  have hw1 := rowScatter_window1 wf e k
  have hn : n.val < N := n.isLt
  have hk : k.val < C := k.isLt
  unfold ScatterDims.resultIdx?
  split
  · rename_i h
    rw [Option.some.injEq]
    constructor
    · intro heq
      have e0 := congrArg Fin.val (congrFun heq 0)
      have e1 := congrArg Fin.val (congrFun heq 1)
      have h0 := (h 0).1
      simp only [hs0, hw0, hs1, hw1] at e0 e1 h0
      have e0' : ((idx (rowAt e)).toInt + ((0 : Nat) : Int)).toNat = n.val := e0
      have e1' : ((0 : Int) + (k.val : Int)).toNat = c.val := e1
      refine ⟨by omega, Fin.ext (by omega)⟩
    · rintro ⟨h0, rfl⟩
      funext a
      refine Fin.ext ?_
      match a with
      | ⟨0, _⟩ =>
        show ((rowScatterDims N E C wf).start (ix2 e k) idx 0 + ((rowScatterDims N E C wf).window (ix2 e k) 0 : Nat)).toNat = n.val
        rw [hs0, hw0, h0]; omega
      | ⟨1, _⟩ =>
        show ((rowScatterDims N E C wf).start (ix2 e k) idx 1 + ((rowScatterDims N E C wf).window (ix2 e k) 1 : Nat)).toNat = k.val
        rw [hs1, hw1]; omega
  · rename_i h
    constructor
    · intro heq; exact absurd heq (by simp)
    · rintro ⟨h0, rfl⟩
      exfalso
      apply h
      intro a
      match a with
      | ⟨0, _⟩ =>
        show 0 ≤ (rowScatterDims N E C wf).start (ix2 e k) idx 0 + ((rowScatterDims N E C wf).window (ix2 e k) 0 : Nat)
          ∧ (rowScatterDims N E C wf).start (ix2 e k) idx 0 + ((rowScatterDims N E C wf).window (ix2 e k) 0 : Nat) < (N : Int)
        rw [hs0, hw0, h0]; omega
      | ⟨1, _⟩ =>
        show 0 ≤ (rowScatterDims N E C wf).start (ix2 e k) idx 1 + ((rowScatterDims N E C wf).window (ix2 e k) 1 : Nat)
          ∧ (rowScatterDims N E C wf).start (ix2 e k) idx 1 + ((rowScatterDims N E C wf).window (ix2 e k) 1 : Nat) < (C : Int)
        rw [hs1, hw1]; omega

/-- THE ROW SCATTER-ADD READ AT `(n, c)`, on the extended reals: the operand there plus the sum over the update rows whose row
    number, read signed, is `n`, of the update at column `c`. -/
theorem scatterAdd_rows_apply {φ : FTy} (x : FVec Ideal ⟨2, ![N, C]⟩ φ) (upd : FVec Ideal ⟨2, ![E, C]⟩ φ) (n : Fin N) (c : Fin C) :
    Host.scatterAdd (rowScatterDims N E C wf) x idx upd (ix2 n c)
      = x (ix2 n c) + ∑ e : Fin E, if (idx (rowAt e)).toInt = (n.val : Int) then upd (ix2 e c) else 0 := by
  show x (ix2 n c) + ∑ j ∈ Finset.univ.filter (fun j => (rowScatterDims N E C wf).resultIdx? j idx = some (ix2 n c)), upd j = _
  refine congrArg (x (ix2 n c) + ·) ?_
  rw [Finset.sum_filter, sum_idx2]
  refine Finset.sum_congr rfl fun e _ => ?_
  simp only [rowScatter_resultIdx_eq_some_iff]
  by_cases h : (idx (rowAt e)).toInt = (n.val : Int)
  · simp only [h, true_and, if_true]
    rw [Finset.sum_ite_eq' Finset.univ c (fun k => upd (ix2 e k))]
    simp
  · simp [h]

end Scatter

end Idealize.ShloMosaic.RowIndexing

end
-- ==== Proof.RefRead.lean ====
/-
  The reference program's two results, read at an index, for relation numbers below 64.

  When every relation number, read as a natural number, is below 64, the row lookup's wrap of negative numbers
  does nothing, its range mask is true at every edge, and its gather (which clamps into the table) reads exactly
  the row the number names. The first result at (e, j) is then the 768-term contraction of the three embeddings laid
  side by side against row j of the weight, which splits into its three runs of 256, plus the bias; the second
  result at (e, 0) is the leaky clamp of the first result's row e against the score weights plus the score bias.
  Only commutativity and associativity of addition on the extended reals and the regrouping of finite sums are
  used: nothing is assumed finite.
-/
import proofs.«158912_g13245679141183_cont_week2b_1242_17_alg».proof.Proof.RefRun
import proofs.«158912_g13245679141183_cont_week2b_1242_17_alg».proof.Proof.Spec
import proofs.«158912_g13245679141183_cont_week2b_1242_17_alg».proof.Proof.LibPlainDot
import proofs.«158912_g13245679141183_cont_week2b_1242_17_alg».proof.Proof.LibSideBySide
import proofs.«158912_g13245679141183_cont_week2b_1242_17_alg».proof.Proof.LibHostMatrix
import proofs.«158912_g13245679141183_cont_week2b_1242_17_alg».proof.Proof.LibBroadcastInDim2
import proofs.«158912_g13245679141183_cont_week2b_1242_17_alg».proof.Proof.LibRowGatherScatter
import Idealize.ShloMosaic.Lib.Pipeline.Value
import Idealize.ShloMosaic.Lib.ValueIdx
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx
open Idealize.ShloMosaic.BroadcastInDim2 Idealize.ShloMosaic.RowIndexing

/-! ## A 32-bit word below 64, read signed

Such a word is non-negative and at most 63 in the signed reading, so the three signed comparisons of the row lookup
come out the same for every edge. -/

theorem toInt_of_lt (w : BitVec 32) (h : w.toNat < 64) : w.toInt = (w.toNat : Int) :=
  BitVec.toInt_eq_toNat_of_lt (by omega)

theorem cmpi_slt_zero (w : BitVec 32) (h : w.toNat < 64) : IntOp.cmpi .slt w 0#32 = 0#1 := by
  show BitVec.ofBool (w.slt 0#32) = 0#1
  have hs : w.slt 0#32 = false := by
    rw [BitVec.slt, toInt_of_lt w h]
    exact decide_eq_false (by simp)
  rw [hs]; rfl

theorem cmpi_sge_zero (w : BitVec 32) (h : w.toNat < 64) : IntOp.cmpi .sge w 0#32 = 1#1 := by
  show BitVec.ofBool ((0#32).sle w) = 1#1
  have hs : (0#32).sle w = true := by
    rw [BitVec.sle, toInt_of_lt w h]
    exact decide_eq_true (by simp)
  rw [hs]; rfl

theorem cmpi_sle_63 (w : BitVec 32) (h : w.toNat < 64) : IntOp.cmpi .sle w 63#32 = 1#1 := by
  show BitVec.ofBool (w.sle 63#32) = 1#1
  have hs : w.sle 63#32 = true := by
    rw [BitVec.sle, toInt_of_lt w h]
    exact decide_eq_true (by simp; omega)
  rw [hs]; rfl

/-- A left fold by and from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-- A reduction by and, from an initial value of 1, of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x _ (fun n _ => hx n)

/-! ## The row lookup, stage by stage, for relation numbers below 64 -/

/-- The wrap does nothing: the number is not negative. -/
theorem wrapped_apply (a2 : IVec S160000 32) (e : Fin 160000) (h : (a2 (ix1 e)).toNat < 64) :
    wrapped a2 (ix1 e) = a2 (ix1 e) := by
  show Scalar.select (IntOp.cmpi .slt (a2 (ix1 e)) (broadcastInDim S160000 ![] bcast_S_S160000 (constantI S_ 32 0#32) (ix1 e))) _ _ = _
  rw [Cert.Bridge.splat_apply]
  show Scalar.select (IntOp.cmpi .slt (a2 (ix1 e)) 0#32) _ _ = _
  rw [cmpi_slt_zero _ h, select_zero]

/-- The index column at (e, 0) is the wrapped number of edge e. -/
theorem idxCol_apply (a2 : IVec S160000 32) (e : Fin 160000) (z : Fin 1) : idxCol a2 (ix2 e z) = wrapped a2 (ix1 e) :=
  vecToCol_apply _ _ e z

/-- Every edge is in range. -/
theorem inRange_apply (a2 : IVec S160000 32) (hid : ∀ e : Fin 160000, (a2 (ix1 e)).toNat < 64) (j : S160000.Idx) :
    inRange a2 j = 1#1 := by
  refine reduce_andi_ones _ _ _ _ (fun i => ?_) (fun _ => rfl) j
  obtain ⟨e, z, rfl⟩ : ∃ (e : Fin 160000) (z : Fin 1), i = ix2 e z := ⟨i 0, i 1, eq_ix2 i⟩
  show IntOp.andi (IntOp.cmpi .sge (idxCol a2 (ix2 e z)) (broadcastInDim S160000x1 ![] bcast_S_S160000x1 (constantI S_ 32 0#32) (ix2 e z)))
      (IntOp.cmpi .sle (idxCol a2 (ix2 e z))
        (broadcastInDim S160000x1 ![0, 1] bcast_S1x1_S160000x1_0_1 (broadcastInDim S1x1 ![1] bcast_S1_S1x1_1 (constantI S1 32 63#32)) (ix2 e z))) = 1#1
  rw [idxCol_apply, wrapped_apply a2 e (hid e), Cert.Bridge.splat_apply, rowToMat_apply, vecToRow_apply]
  show IntOp.andi (IntOp.cmpi .sge (a2 (ix1 e)) 0#32) (IntOp.cmpi .sle (a2 (ix1 e)) 63#32) = 1#1
  rw [cmpi_sge_zero _ (hid e), cmpi_sle_63 _ (hid e)]
  rfl

-- the dimension record and the general row-gather record agree field by field, the numerals by computation
set_option maxRecDepth 8192 in
/-- The gather at (e, k): the table's row at the index column's entry (e, 0), read signed and clamped into [0, 63]. -/
theorem gather_at (a2 : IVec S160000 32) (a3 : FVec Ideal S64x256 .f32) (e : Fin 160000) (k : Fin 256) :
    Host.gather gather_S64x256_S160000x1_S160000x256_1_0_n_n_0_1_1256 a3 (idxCol a2) (ix2 e k)
      = a3 (ix2 (⟨min (idxCol a2 (rowAt e)).toInt.toNat (64 - 1), by omega⟩ : Fin 64) k) :=
  gather_rows_apply (N := 64) (E := 160000) (C := 256) (by decide)
      gather_S64x256_S160000x1_S160000x256_1_0_n_n_0_1_1256_wf a3 (idxCol a2) e k

set_option maxRecDepth 8192 in
/-- The looked-up row of edge e is the table's row at the edge's relation number. -/
theorem relRows_apply (a2 : IVec S160000 32) (a3 : FVec Ideal S64x256 .f32) (hid : ∀ e : Fin 160000, (a2 (ix1 e)).toNat < 64)
    (e : Fin 160000) (k : Fin 256) : relRows a2 a3 (ix2 e k) = a3 (ix2 (Cert.Spec.relRow (a2 (ix1 e))) k) := by
  have hm : broadcastInDim S160000x256 ![0] bcast_S160000_S160000x256_0 (inRange a2) (ix2 e k) = 1#1 :=
    (broadcastInDim_apply (![0] : Fin 1 → Fin 2) bcast_S160000_S160000x256_0 (inRange a2) (ix2 e k) (ix1 e) (fun d => match d with
      | ⟨0, _⟩ => (if_neg (show ¬ ((160000 : Nat) = 1) by decide)).symm)).trans (inRange_apply a2 hid _)
  unfold relRows
  rw [select_apply, hm, select_one, gather_at]
  refine congrArg (fun r : Fin 64 => a3 (ix2 r k)) (Fin.ext ?_)
  show min (idxCol a2 (rowAt e)).toInt.toNat (64 - 1) = (Cert.Spec.relRow (a2 (ix1 e))).val
  rw [idxCol_apply, wrapped_apply a2 e (hid e), toInt_of_lt _ (hid e), Int.toNat_natCast, Cert.Spec.relRow_val_of_lt _ (hid e)]
  have := hid e
  omega

/-! ## The three embeddings side by side, read at a column of each run of 256 -/

section Cat
variable (x0 x1 x2 : FVec Ideal S160000x256 .f32)
  (h : Shape.Concatenates [S160000x256, S160000x256, S160000x256] S160000x768 1)
  (e : Fin 160000) (k : Fin 256)

theorem cat3_first :
    concatenate S160000x768 1 [⟨S160000x256, x0⟩, ⟨S160000x256, x1⟩, ⟨S160000x256, x2⟩] h (ix2 e (⟨k.val, by omega⟩ : Fin 768)) = x0 (ix2 e k) :=
  concatenate_apply_piece (t := S160000x768) (1 : Fin 2) [⟨S160000x256, x0⟩, ⟨S160000x256, x1⟩, ⟨S160000x256, x2⟩] h (ix2 e (⟨k.val, by omega⟩ : Fin 768)) 0 (show (0 : Nat) < 3 by decide) S160000x256 x0 rfl rfl 0 rfl (ix2 e k)
    (fun b hb => match b, hb with
      | ⟨0, _⟩, _ => rfl
      | ⟨1, _⟩, hb => absurd rfl hb)
    (Nat.zero_add _)

theorem cat3_second :
    concatenate S160000x768 1 [⟨S160000x256, x0⟩, ⟨S160000x256, x1⟩, ⟨S160000x256, x2⟩] h (ix2 e (⟨256 + k.val, by omega⟩ : Fin 768)) = x1 (ix2 e k) :=
  concatenate_apply_piece (t := S160000x768) (1 : Fin 2) [⟨S160000x256, x0⟩, ⟨S160000x256, x1⟩, ⟨S160000x256, x2⟩] h (ix2 e (⟨256 + k.val, by omega⟩ : Fin 768)) 1 (show (1 : Nat) < 3 by decide) S160000x256 x1 rfl rfl 256 rfl (ix2 e k)
    (fun b hb => match b, hb with
      | ⟨0, _⟩, _ => rfl
      | ⟨1, _⟩, hb => absurd rfl hb)
    rfl

theorem cat3_third :
    concatenate S160000x768 1 [⟨S160000x256, x0⟩, ⟨S160000x256, x1⟩, ⟨S160000x256, x2⟩] h (ix2 e (⟨512 + k.val, by omega⟩ : Fin 768)) = x2 (ix2 e k) :=
  concatenate_apply_piece (t := S160000x768) (1 : Fin 2) [⟨S160000x256, x0⟩, ⟨S160000x256, x1⟩, ⟨S160000x256, x2⟩] h (ix2 e (⟨512 + k.val, by omega⟩ : Fin 768)) 2 (show (2 : Nat) < 3 by decide) S160000x256 x2 rfl rfl 512 rfl (ix2 e k)
    (fun b hb => match b, hb with
      | ⟨0, _⟩, _ => rfl
      | ⟨1, _⟩, hb => absurd rfl hb)
    rfl

end Cat

/-! ## The first result -/

section Results
variable (a0 a1 : FVec Ideal S160000x256 .f32) (a2 : IVec S160000 32) (a3 : FVec Ideal S64x256 .f32)
  (a4 : FVec Ideal S256x768 .f32) (a5 : FVec Ideal S256 .f32) (a6 : FVec Ideal S1x256 .f32) (a7 : FVec Ideal S1 .f32)

/-- The first result at (e, j): the 768-term contraction against row j of the weight, split into its three runs of
    256 — the ego, relation and neighbour embeddings against the weight's three column blocks — plus the bias. -/
theorem tt6_at (hid : ∀ e : Fin 160000, (a2 (ix1 e)).toNat < 64) (e : Fin 160000) (j : Fin 256) :
    tt6 a0 a1 a2 a3 a4 a5 (ix2 e j) = Cert.Spec.ttEntry a0 a1 a2 a3 a4 a5 e j := by
  have hdot : Host.dotGeneral (F := Ideal) (φ₁ := .f32) (φ₂ := .f32) dot_S160000x768_S768x256_S160000x256_1_0_0_1_n_n none
        (cat a0 a1 a2 a3) (transpose S768x256 [1, 0] a4 transposes_S256x768_S768x256_1_0) (ix2 e j)
      = ∑ k : Fin 768, cat a0 a1 a2 a3 (ix2 e k) * a4 (ix2 j k) := by
    refine (Cert.Bridge.dotGeneral_plain dot_S160000x768_S768x256_S160000x256_1_0_0_1_n_n rfl rfl rfl rfl rfl rfl none .single
      _ _ e j).trans ?_
    exact Finset.sum_congr rfl fun k _ => by rw [Cert.Lib.HostMatrix.transposed_apply]
  have hb : broadcastInDim S160000x256 ![0, 1] bcast_S1x256_S160000x256_0_1 (broadcastInDim S1x256 ![1] bcast_S256_S1x256_1 a5) (ix2 e j)
      = a5 (ix1 j) := by
    rw [rowToMat_apply, vecToRow_apply]
  unfold tt6
  rw [addf_apply, hdot, hb, Cert.Spec.sum_thirds]
  unfold Cert.Spec.ttEntry
  refine congrArg (· + a5 (ix1 j)) ?_
  rw [add_right_comm]
  refine congrArg₂ (· + ·) (congrArg₂ (· + ·) ?_ ?_) ?_
  · exact Finset.sum_congr rfl fun k _ => by
      unfold cat
      rw [cat3_first]
  · exact Finset.sum_congr rfl fun k _ => by
      unfold cat
      rw [cat3_third]
  · exact Finset.sum_congr rfl fun k _ => by
      unfold cat
      rw [cat3_second, relRows_apply a2 a3 hid]

theorem tt6_eq (hid : ∀ e : Fin 160000, (a2 (ValueIdx.ix1 e)).toNat < 64) :
    tt6 a0 a1 a2 a3 a4 a5 = Cert.Spec.TT a0 a1 a2 a3 a4 a5 := by
  funext i
  rw [eq_ix2 i]
  exact tt6_at a0 a1 a2 a3 a4 a5 hid (i 0) (i 1)

/-! ## The second result -/

/-- The score before the clamp at (e, 0): the first result's row e against the score weights, plus the score bias. -/
theorem pre11_at (hid : ∀ e : Fin 160000, (a2 (ix1 e)).toNat < 64) (e : Fin 160000) (z : Fin 1) :
    pre11 a0 a1 a2 a3 a4 a5 a6 a7 (ix2 e z) = Cert.Spec.preEntry a0 a1 a2 a3 a4 a5 a6 a7 e := by
  have hdot : Host.dotGeneral (F := Ideal) (φ₁ := .f32) (φ₂ := .f32) dot_S160000x256_S256x1_S160000x1_1_0_0_1_n_n none
        (tt6 a0 a1 a2 a3 a4 a5) (transpose S256x1 [1, 0] a6 transposes_S1x256_S256x1_1_0) (ix2 e z)
      = ∑ j : Fin 256, tt6 a0 a1 a2 a3 a4 a5 (ix2 e j) * a6 (ix2 z j) := by
    refine (Cert.Bridge.dotGeneral_plain dot_S160000x256_S256x1_S160000x1_1_0_0_1_n_n rfl rfl rfl rfl rfl rfl none .single
      _ _ e z).trans ?_
    exact Finset.sum_congr rfl fun j _ => by rw [Cert.Lib.HostMatrix.transposed_apply]
  have hb : broadcastInDim S160000x1 ![0, 1] bcast_S1x1_S160000x1_0_1 (broadcastInDim S1x1 ![1] bcast_S1_S1x1_1 a7) (ix2 e z)
      = a7 (ix1 z) := by
    rw [rowToMat_apply, vecToRow_apply]
  have hz : z = (0 : Fin 1) := Subsingleton.elim _ _
  subst hz
  unfold pre11
  rw [addf_apply, hdot, hb]
  unfold Cert.Spec.preEntry
  exact congrArg (· + a7 (ix1 (0 : Fin 1))) (Finset.sum_congr rfl fun j _ => by rw [tt6_at a0 a1 a2 a3 a4 a5 hid])

/-- The second result at (e, 0): the leaky clamp of the score. -/
theorem attn12_at (hid : ∀ e : Fin 160000, (a2 (ix1 e)).toNat < 64) (e : Fin 160000) (z : Fin 1) :
    attn12 a0 a1 a2 a3 a4 a5 a6 a7 (ix2 e z) = Cert.Spec.leaky (Cert.Spec.preEntry a0 a1 a2 a3 a4 a5 a6 a7 e) := by
  unfold attn12
  rw [select_apply, cmpf_apply, mulf_apply, Cert.Lib.HostMatrix.splat_apply, Cert.Lib.HostMatrix.splat_apply,
    Cert.Bridge.select_oge_zero, pre11_at a0 a1 a2 a3 a4 a5 a6 a7 hid]
  rfl

theorem attn12_eq (hid : ∀ e : Fin 160000, (a2 (ValueIdx.ix1 e)).toNat < 64) :
    attn12 a0 a1 a2 a3 a4 a5 a6 a7 = Cert.Spec.ATTN a0 a1 a2 a3 a4 a5 a6 a7 := by
  funext i
  rw [eq_ix2 i]
  exact attn12_at a0 a1 a2 a3 a4 a5 a6 a7 hid (i 0) (i 1)

end Results

end Cert.ReferenceIdeal.RefValue

end
-- ==== Proof.lean ====
/-
  The certificate: a graph-attention propagation step, kernel against reference, on the extended reals.

  For each of 160000 edges the reference looks up the edge's relation embedding in a 64-row table, lays the ego, relation
  and neighbour embeddings side by side, applies a 256 × 768 linear map with bias (the first result), and scores the
  result against a weight row with a bias and a leaky clamp of slope f32(0.2) (the second result). The kernel never
  gathers: it multiplies a one-hot row (the relation number compared with 0 … 63) into the table's projection, splits
  the 768-term contraction into its three runs of 256, computes the 256 features in two halves of 128, and accumulates
  the score over those halves. With every relation number in [0, 64) — the precondition's last conjunct — the one-hot
  product picks exactly the looked-up row (0 · x = 0 and 1 · x = x for every extended real x), and the rest is
  regrouping of finite sums, which holds on the extended reals without any finiteness.
  Spec states the common function; KernelRows, KernelBlock and KernelValue read the kernel's run as that function,
  RefRun and RefRead the reference's, PreRange reads the range of the relation numbers back from the precondition.
-/
import proofs.«158912_g13245679141183_cont_week2b_1242_17_alg».proof.Defs
import proofs.«158912_g13245679141183_cont_week2b_1242_17_alg».proof.Proof.Gen.Kernel
import proofs.«158912_g13245679141183_cont_week2b_1242_17_alg».proof.Proof.Gen.Kernel.Skeleton
import proofs.«158912_g13245679141183_cont_week2b_1242_17_alg».proof.Proof.Gen.Kernel.Launch
import proofs.«158912_g13245679141183_cont_week2b_1242_17_alg».proof.Proof.Gen.Kernel.Points
import proofs.«158912_g13245679141183_cont_week2b_1242_17_alg».proof.Proof.Gen.Kernel.Frame
import proofs.«158912_g13245679141183_cont_week2b_1242_17_alg».proof.Proof.Gen.KernelIdeal
import proofs.«158912_g13245679141183_cont_week2b_1242_17_alg».proof.Proof.Gen.KernelIdeal.Skeleton
import proofs.«158912_g13245679141183_cont_week2b_1242_17_alg».proof.Proof.Gen.KernelIdeal.Launch
import proofs.«158912_g13245679141183_cont_week2b_1242_17_alg».proof.Proof.Gen.KernelIdeal.Points
import proofs.«158912_g13245679141183_cont_week2b_1242_17_alg».proof.Proof.Gen.KernelIdeal.Frame
import proofs.«158912_g13245679141183_cont_week2b_1242_17_alg».proof.Proof.Gen.ReferenceIdeal
import proofs.«158912_g13245679141183_cont_week2b_1242_17_alg».proof.Proof.Gen.Pre_finite_inputs
import proofs.«158912_g13245679141183_cont_week2b_1242_17_alg».proof.Proof.PreRange
import proofs.«158912_g13245679141183_cont_week2b_1242_17_alg».proof.Proof.KernelValue
import proofs.«158912_g13245679141183_cont_week2b_1242_17_alg».proof.Proof.RefRun
import proofs.«158912_g13245679141183_cont_week2b_1242_17_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- The idealization rewrote nothing. -/
theorem preserves : Cert.preserves_Kernel_KernelIdeal := trivial

/-- Under the precondition every relation number lies in [0, 64); there the kernel's run ends at the transformed triples
    and the clamped scores (the whole-array functions of Spec), and the reference's composed terms are those same functions
    of arguments that agree. -/
theorem algebraic : Cert.algebraic_KernelIdeal_ReferenceIdeal := by
  intro m ρ m' ρ' hpre hagree
  have hid : ∀ (c : Dev Cert.KernelIdeal.nD) (e : Fin 160000),
      ((m ((c : Thread Cert.KernelIdeal.nD Cert.KernelIdeal.τ).loc Cert.KernelIdeal.main_arg2) : Cert.KernelIdeal.S160000.Idx → BitVec 32) (ValueIdx.ix1 e)).toNat < 64 :=
    fun c e => Cert.PreRange.ids_lt _ _ _ _ _ _ _ _ (hpre c) e
  refine ⟨fun c => Cert.KernelIdeal.Whole.tt m c, fun c => Cert.KernelIdeal.Whole.attn m c, Cert.KernelIdeal.Whole.run m ρ hid, ?_⟩
  refine (θ_run Cert.ReferenceIdeal.defs _ _).mono (fun _ h c => ?_) (Cert.ReferenceIdeal.RefValue.run m' ρ')
  obtain ⟨h6, h12, hargs⟩ := h c
  obtain ⟨a0, a1, a2, a3, a4, a5, a6, a7⟩ := hagree c
  refine ⟨h6.trans ?_, h12.trans ?_, hargs⟩
  · rw [a0, a1, a2, a3, a4, a5]
    exact Cert.ReferenceIdeal.RefValue.tt6_eq _ _ _ _ _ _ (hid c)
  · rw [a0, a1, a2, a3, a4, a5, a6, a7]
    exact Cert.ReferenceIdeal.RefValue.attn12_eq _ _ _ _ _ _ _ _ (hid c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
